-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x4096x16 : Shape := ⟨3, ![8, 4096, 16]⟩
abbrev S256x256 : Shape := ⟨2, ![256, 256]⟩
abbrev S256 : Shape := ⟨1, ![256]⟩
abbrev S4x256 : Shape := ⟨2, ![4, 256]⟩
abbrev S_ : Shape := ⟨0, ![]⟩
abbrev S1x256 : Shape := ⟨2, ![1, 256]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  slices_S4x256_S1x256_3_0 : S4x256.Slices ![3, 0] S1x256
  shapeCasts_S1x256_S256 : S1x256.ShapeCasts S256

variable [Facts]

def fn_part5 {F : FTy → Type} [FloatOps F] (main_arg13 : FVec F S4x256 .f32) (main_v81 : IVec S_ 1) (main_v85 : IVec S256 1) (main_c_31 : IVec S_ 1) : IVec S_ 1 :=
  let main_v86 : IVec S_ 1 := (fun x v => Host.reduce IntOp.andi x v reducesTo_S256_S_d0 h_S_) main_v85 main_c_31
  let main_v87 : IVec S_ 1 := andi main_v81 main_v86
  let main_v88 : FVec F S1x256 .f32 := (extractStridedSlice S1x256 ![3, 0] · slices_S4x256_S1x256_3_0) main_arg13
  let main_v89 : FVec F S256 .f32 := shapeCast S256 main_v88 shapeCasts_S1x256_S256
  let main_cst_32 : FVec F S_ .f32 := constant S_ .f32 0x00000000#32
  let main_v90 : FVec F S256 .f32 := broadcastInDim S256 ![] bcast_S_S256 main_cst_32
  let main_v91 : IVec S256 1 := cmpf .oge main_v89 main_v90
  let main_c_33 : IVec S_ 1 := constantI S_ 1 1#1
  let main_v92 : IVec S_ 1 := (fun x v => Host.reduce IntOp.andi x v reducesTo_S256_S_d0 h_S_) main_v91 main_c_33
  let main_v93 : IVec S_ 1 := andi main_v87 main_v92
  main_v93

def fn_part4 {F : FTy → Type} [FloatOps F] (main_arg10 : FVec F S4x256 .f32) (main_arg11 : FVec F S4x256 .f32) (main_arg12 : FVec F S4x256 .f32) (main_arg13 : FVec F S4x256 .f32) (main_v63 : IVec S_ 1) (main_v67 : IVec S256 1) (main_c_25 : IVec S_ 1) : IVec S_ 1 :=
  let main_v68 : IVec S_ 1 := (fun x v => Host.reduce IntOp.andi x v reducesTo_S256_S_d0 h_S_) main_v67 main_c_25
  let main_v69 : IVec S_ 1 := andi main_v63 main_v68
  let main_v70 : FVec F S1x256 .f32 := (extractStridedSlice S1x256 ![3, 0] · slices_S4x256_S1x256_3_0) main_arg10
  let main_v71 : FVec F S256 .f32 := shapeCast S256 main_v70 shapeCasts_S1x256_S256
  let main_cst_26 : FVec F S_ .f32 := constant S_ .f32 0x00000000#32
  let main_v72 : FVec F S256 .f32 := broadcastInDim S256 ![] bcast_S_S256 main_cst_26
  let main_v73 : IVec S256 1 := cmpf .oge main_v71 main_v72
  let main_c_27 : IVec S_ 1 := constantI S_ 1 1#1
  let main_v74 : IVec S_ 1 := (fun x v => Host.reduce IntOp.andi x v reducesTo_S256_S_d0 h_S_) main_v73 main_c_27
  let main_v75 : IVec S_ 1 := andi main_v69 main_v74
  let main_v76 : FVec F S1x256 .f32 := (extractStridedSlice S1x256 ![3, 0] · slices_S4x256_S1x256_3_0) main_arg11
  let main_v77 : FVec F S256 .f32 := shapeCast S256 main_v76 shapeCasts_S1x256_S256
  let main_cst_28 : FVec F S_ .f32 := constant S_ .f32 0x00000000#32
  let main_v78 : FVec F S256 .f32 := broadcastInDim S256 ![] bcast_S_S256 main_cst_28
  let main_v79 : IVec S256 1 := cmpf .oge main_v77 main_v78
  let main_c_29 : IVec S_ 1 := constantI S_ 1 1#1
  let main_v80 : IVec S_ 1 := (fun x v => Host.reduce IntOp.andi x v reducesTo_S256_S_d0 h_S_) main_v79 main_c_29
  let main_v81 : IVec S_ 1 := andi main_v75 main_v80
  let main_v82 : FVec F S1x256 .f32 := (extractStridedSlice S1x256 ![3, 0] · slices_S4x256_S1x256_3_0) main_arg12
  let main_v83 : FVec F S256 .f32 := shapeCast S256 main_v82 shapeCasts_S1x256_S256
  let main_cst_30 : FVec F S_ .f32 := constant S_ .f32 0x00000000#32
  let main_v84 : FVec F S256 .f32 := broadcastInDim S256 ![] bcast_S_S256 main_cst_30
  let main_v85 : IVec S256 1 := cmpf .oge main_v83 main_v84
  let main_c_31 : IVec S_ 1 := constantI S_ 1 1#1
  fn_part5 (F := F) main_arg13 main_v81 main_v85 main_c_31

def fn_part3 {F : FTy → Type} [FloatOps F] (main_arg9 : FVec F S4x256 .f32) (main_arg10 : FVec F S4x256 .f32) (main_arg11 : FVec F S4x256 .f32) (main_arg12 : FVec F S4x256 .f32) (main_arg13 : FVec F S4x256 .f32) (main_v48 : IVec S_ 1) (main_v49 : FVec F S4x256 .f32) (main_v50 : FVec F S4x256 .f32) : IVec S_ 1 :=
  let main_v51 : IVec S4x256 1 := cmpf .olt main_v49 main_v50
  let main_c_19 : IVec S_ 1 := constantI S_ 1 1#1
  let main_v52 : IVec S_ 1 := (fun x v => Host.reduce IntOp.andi x v reducesTo_S4x256_S_d0_1 h_S_) main_v51 main_c_19
  let main_v53 : IVec S_ 1 := andi main_v48 main_v52
  let main_v54 : FVec F S4x256 .f32 := Host.absf main_arg12
  let main_cst_20 : FVec F S_ .f32 := constant S_ .f32 0x7F800000#32
  let main_v55 : FVec F S4x256 .f32 := broadcastInDim S4x256 ![] bcast_S_S4x256 main_cst_20
  let main_v56 : IVec S4x256 1 := cmpf .olt main_v54 main_v55
  let main_c_21 : IVec S_ 1 := constantI S_ 1 1#1
  let main_v57 : IVec S_ 1 := (fun x v => Host.reduce IntOp.andi x v reducesTo_S4x256_S_d0_1 h_S_) main_v56 main_c_21
  let main_v58 : IVec S_ 1 := andi main_v53 main_v57
  let main_v59 : FVec F S4x256 .f32 := Host.absf main_arg13
  let main_cst_22 : FVec F S_ .f32 := constant S_ .f32 0x7F800000#32
  let main_v60 : FVec F S4x256 .f32 := broadcastInDim S4x256 ![] bcast_S_S4x256 main_cst_22
  let main_v61 : IVec S4x256 1 := cmpf .olt main_v59 main_v60
  let main_c_23 : IVec S_ 1 := constantI S_ 1 1#1
  let main_v62 : IVec S_ 1 := (fun x v => Host.reduce IntOp.andi x v reducesTo_S4x256_S_d0_1 h_S_) main_v61 main_c_23
  let main_v63 : IVec S_ 1 := andi main_v58 main_v62
  let main_v64 : FVec F S1x256 .f32 := (extractStridedSlice S1x256 ![3, 0] · slices_S4x256_S1x256_3_0) main_arg9
  let main_v65 : FVec F S256 .f32 := shapeCast S256 main_v64 shapeCasts_S1x256_S256
  let main_cst_24 : FVec F S_ .f32 := constant S_ .f32 0x00000000#32
  let main_v66 : FVec F S256 .f32 := broadcastInDim S256 ![] bcast_S_S256 main_cst_24
  let main_v67 : IVec S256 1 := cmpf .oge main_v65 main_v66
  let main_c_25 : IVec S_ 1 := constantI S_ 1 1#1
  fn_part4 (F := F) main_arg10 main_arg11 main_arg12 main_arg13 main_v63 main_v67 main_c_25

def fn_part2 {F : FTy → Type} [FloatOps F] (main_arg8 : FVec F S256 .f32) (main_arg9 : FVec F S4x256 .f32) (main_arg10 : FVec F S4x256 .f32) (main_arg11 : FVec F S4x256 .f32) (main_arg12 : FVec F S4x256 .f32) (main_arg13 : FVec F S4x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S4x256 .f32 := Host.absf main_arg9
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S4x256 .f32 := Host.absf main_arg10
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  let main_v49 : FVec F S4x256 .f32 := Host.absf main_arg11
  let main_cst_18 : FVec F S_ .f32 := constant S_ .f32 0x7F800000#32
  let main_v50 : FVec F S4x256 .f32 := broadcastInDim S4x256 ![] bcast_S_S4x256 main_cst_18
  fn_part3 (F := F) main_arg9 main_arg10 main_arg11 main_arg12 main_arg13 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S4x256 .f32) (main_arg10 : FVec F S4x256 .f32) (main_arg11 : FVec F S4x256 .f32) (main_arg12 : FVec F S4x256 .f32) (main_arg13 : FVec F S4x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S8x4096x256 .f32) (main_arg1 : IVec S8x4096x16 32) (main_arg2 : FVec F S256x256 .f32) (main_arg3 : FVec F S256x256 .f32) (main_arg4 : FVec F S256x256 .f32) (main_arg5 : FVec F S256x256 .f32) (main_arg6 : FVec F S256 .f32) (main_arg7 : FVec F S256x256 .f32) (main_arg8 : FVec F S256 .f32) (main_arg9 : FVec F S4x256 .f32) (main_arg10 : FVec F S4x256 .f32) (main_arg11 : FVec F S4x256 .f32) (main_arg12 : FVec F S4x256 .f32) (main_arg13 : FVec F S4x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S8x4096x256 : Shape := ⟨3, ![8, 4096, 256]⟩
abbrev S8x4096x16 : Shape := ⟨3, ![8, 4096, 16]⟩
abbrev S256x256 : Shape := ⟨2, ![256, 256]⟩
abbrev S256 : Shape := ⟨1, ![256]⟩
abbrev S4x256 : Shape := ⟨2, ![4, 256]⟩
abbrev S32768x256 : Shape := ⟨2, ![32768, 256]⟩
abbrev S2048x256 : Shape := ⟨2, ![2048, 256]⟩
abbrev S_ : Shape := ⟨0, ![]⟩
abbrev S8x4096x16x1 : Shape := ⟨4, ![8, 4096, 16, 1]⟩
abbrev S8x4096x16x256 : Shape := ⟨4, ![8, 4096, 16, 256]⟩
abbrev S8x4096x1x256 : Shape := ⟨4, ![8, 4096, 1, 256]⟩
abbrev S1024x256 : Shape := ⟨2, ![1024, 256]⟩
abbrev S1x256 : Shape := ⟨2, ![1, 256]⟩

abbrev nBuf : Space → Nat
  | .hbm => 39
  | .vmem => 22
  | .smem => 0
  | _ => 0

abbrev bufTy : (tb : Table) → Fin (tcTables nBuf tb) → BufTy
  | .hbm, ⟨0, _⟩ => ⟨S8x4096x256, .f32⟩
  | .hbm, ⟨1, _⟩ => ⟨S8x4096x16, .i32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4x256, .f32⟩
  | .hbm, ⟨10, _⟩ => ⟨S4x256, .f32⟩
  | .hbm, ⟨11, _⟩ => ⟨S4x256, .f32⟩
  | .hbm, ⟨12, _⟩ => ⟨S4x256, .f32⟩
  | .hbm, ⟨13, _⟩ => ⟨S4x256, .f32⟩
  | .hbm, ⟨14, _⟩ => ⟨S32768x256, .f32⟩
  | .hbm, ⟨15, _⟩ => ⟨S256x256, .f32⟩
  | .hbm, ⟨16, _⟩ => ⟨S32768x256, .f32⟩
  | .hbm, ⟨17, _⟩ => ⟨S8x4096x256, .f32⟩
  | .hbm, ⟨18, _⟩ => ⟨S_, .i32⟩
  | .hbm, ⟨19, _⟩ => ⟨S8x4096x16, .i32⟩
  | .hbm, ⟨20, _⟩ => ⟨S8x4096x16, .i1⟩
  | .hbm, ⟨21, _⟩ => ⟨S_, .i32⟩
  | .hbm, ⟨22, _⟩ => ⟨S8x4096x16, .i32⟩
  | .hbm, ⟨23, _⟩ => ⟨S8x4096x16, .i32⟩
  | .hbm, ⟨24, _⟩ => ⟨S8x4096x16, .i32⟩
  | .hbm, ⟨25, _⟩ => ⟨S8x4096x16x1, .i32⟩
  | .hbm, ⟨26, _⟩ => ⟨S8x4096x16x256, .f32⟩
  | .hbm, ⟨27, _⟩ => ⟨S8x4096x1x256, .f32⟩
  | .hbm, ⟨28, _⟩ => ⟨S8x4096x16x256, .f32⟩
  | .hbm, ⟨29, _⟩ => ⟨S8x4096x16x256, .f32⟩
  | .hbm, ⟨30, _⟩ => ⟨S_, .f32⟩
  | .hbm, ⟨31, _⟩ => ⟨S8x4096x256, .f32⟩
  | .hbm, ⟨32, _⟩ => ⟨S32768x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S32768x256, .f32⟩
  | .hbm, ⟨38, _⟩ => ⟨S8x4096x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256, .f32⟩
  | .local _ .vmem, ⟨13, _⟩ => ⟨S256x256, .f32⟩
  | .local _ .vmem, ⟨14, _⟩ => ⟨S256, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | .local _ .vmem, ⟨18, _⟩ => ⟨S4x256, .f32⟩
  | .local _ .vmem, ⟨19, _⟩ => ⟨S4x256, .f32⟩
  | .local _ .vmem, ⟨20, _⟩ => ⟨S1024x256, .f32⟩
  | .local _ .vmem, ⟨21, _⟩ => ⟨S1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  shapeCasts_S8x4096x256_S32768x256 : S8x4096x256.ShapeCasts S32768x256
  transposes_S256x256_S256x256_1_0 : S256x256.Transposes [1, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32768x256_S8x4096x256 : S32768x256.ShapeCasts S8x4096x256
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x256_S8x4096x1x256_0_1_3 : S8x4096x256.BroadcastsInDim S8x4096x1x256 (![0, 1, 3] : Fin 3 → Fin S8x4096x1x256.rank)
  bcast_S8x4096x1x256_S8x4096x16x256_0_1_2_3 : S8x4096x1x256.BroadcastsInDim S8x4096x16x256 (![0, 1, 2, 3] : Fin 4 → Fin S8x4096x16x256.rank)
  reducesTo_S8x4096x16x256_S8x4096x256_d2 : S8x4096x16x256.ReducesTo [2] S8x4096x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4x256_S4x256_0_0 : ∀ a, (![0, 0] : Fin 2 → Nat) a + S4x256.size a ≤ S4x256.size a
  h_S4x256 : 0 < S4x256.numel
  slices_S4x256_o0_0_S1x256 : S4x256.Slices ![0, 0] S1x256
  shapeCasts_S1x256_S256 : S1x256.ShapeCasts S256
  slices_S4x256_o1_0_S1x256 : S4x256.Slices ![1, 0] S1x256
  slices_S4x256_o2_0_S1x256 : S4x256.Slices ![2, 0] S1x256
  slices_S4x256_o3_0_S1x256 : S4x256.Slices ![3, 0] S1x256
  shapeCasts_S256_S1x256 : S256.ShapeCasts S1x256
  broadcasts_S1x256_S1024x256 : S1x256.Broadcasts S1024x256
  inb_S256_S256_0 : ∀ a, (![0] : Fin 1 → Nat) a + S256.size a ≤ S256.size a
  h_S256 : 0 < S256.numel
  dot_S2048x256_S256x256_S2048x256_1_0_0_1_n_n_wf : DotDims.WF S2048x256 S256x256 S2048x256 [1] [0] [0] [1] [] []
  gather_S8x4096x256_S8x4096x16x1_S8x4096x16x256_3_1_0_0_1_3_11256_wf : GatherDims.WF S8x4096x256 S8x4096x16x1 S8x4096x16x256 [3] [1] [0] [1] [0] 3 ![1, 1, 256]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .f32 = 32 ∨ (Rect.block (s := S32768x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S32768x256.size a
  hwx1_1 : ∀ i : grid1.Coords, EltTy.bits .f32 = 32 ∨ (Rect.block (s := S32768x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x256.size a ≤ S4x256.size a
  hwx1_8 : ∀ i : grid1.Coords, EltTy.bits .f32 = 32 ∨ (Rect.block (s := S4x256) S4x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x256.size a ≤ S4x256.size a
  hwx1_9 : ∀ i : grid1.Coords, EltTy.bits .f32 = 32 ∨ (Rect.block (s := S4x256) S4x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4x256.size a ≤ S4x256.size a
  hwx1_10 : ∀ i : grid1.Coords, EltTy.bits .f32 = 32 ∨ (Rect.block (s := S4x256) S4x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x256.size a ≤ S4x256.size a
  hwx1_11 : ∀ i : grid1.Coords, EltTy.bits .f32 = 32 ∨ (Rect.block (s := S4x256) S4x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4x256.size a ≤ S4x256.size a
  hwx1_12 : ∀ i : grid1.Coords, EltTy.bits .f32 = 32 ∨ (Rect.block (s := S4x256) S4x256.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x256.size a ≤ S32768x256.size a
  hwx1_13 : ∀ i : grid1.Coords, EltTy.bits .f32 = 32 ∨ (Rect.block (s := S32768x256) S1024x256.size (cc1_transform_13 i) (hinb1_13 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S8x4096x256_S8x4096x16x1_S8x4096x16x256_3_1_0_0_1_3_11256 : GatherDims S8x4096x256 S8x4096x16x1 S8x4096x16x256 where
  offsetDims := [3]
  collapsedSliceDims := [1]
  operandBatchingDims := [0]
  startIndicesBatchingDims := [0]
  startIndexMap := [1]
  indexVectorDim := 3
  sliceSizes := ![1, 1, 256]
  wf := gather_S8x4096x256_S8x4096x16x1_S8x4096x16x256_3_1_0_0_1_3_11256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S4x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S4x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S4x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S4x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S4x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v20) S1024x256.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8x4096x256 : Shape := ⟨3, ![8, 4096, 256]⟩
abbrev S8x4096x16 : Shape := ⟨3, ![8, 4096, 16]⟩
abbrev S256x256 : Shape := ⟨2, ![256, 256]⟩
abbrev S256 : Shape := ⟨1, ![256]⟩
abbrev S4x256 : Shape := ⟨2, ![4, 256]⟩
abbrev S_ : Shape := ⟨0, ![]⟩
abbrev S8x4096x16x1 : Shape := ⟨4, ![8, 4096, 16, 1]⟩
abbrev S8x4096x16x256 : Shape := ⟨4, ![8, 4096, 16, 256]⟩
abbrev S8x4096x1x256 : Shape := ⟨4, ![8, 4096, 1, 256]⟩
abbrev S1x256 : Shape := ⟨2, ![1, 256]⟩
abbrev S1x1x256 : Shape := ⟨3, ![1, 1, 256]⟩

abbrev nBuf : Space → Nat
  | .hbm => 164
  | .vmem => 0
  | .smem => 0
  | _ => 0

abbrev hbmTy0_0 (i : Nat) : BufTy := match i % 128 with
  | 0 => ⟨S8x4096x256, .f32⟩
  | 1 => ⟨S8x4096x16, .i32⟩
  | 2 => ⟨S256x256, .f32⟩
  | 3 => ⟨S256x256, .f32⟩
  | 4 => ⟨S256x256, .f32⟩
  | 5 => ⟨S256x256, .f32⟩
  | 6 => ⟨S256, .f32⟩
  | 7 => ⟨S256x256, .f32⟩
  | 8 => ⟨S256, .f32⟩
  | 9 => ⟨S4x256, .f32⟩
  | 10 => ⟨S4x256, .f32⟩
  | 11 => ⟨S4x256, .f32⟩
  | 12 => ⟨S4x256, .f32⟩
  | 13 => ⟨S4x256, .f32⟩
  | 14 => ⟨S8x4096x256, .f32⟩
  | 15 => ⟨S_, .i32⟩
  | 16 => ⟨S8x4096x16, .i32⟩
  | 17 => ⟨S8x4096x16, .i1⟩
  | 18 => ⟨S_, .i32⟩
  | 19 => ⟨S8x4096x16, .i32⟩
  | 20 => ⟨S8x4096x16, .i32⟩
  | 21 => ⟨S8x4096x16, .i32⟩
  | 22 => ⟨S8x4096x16x1, .i32⟩
  | 23 => ⟨S8x4096x16x256, .f32⟩
  | 24 => ⟨S8x4096x1x256, .f32⟩
  | 25 => ⟨S8x4096x16x256, .f32⟩
  | 26 => ⟨S8x4096x16x256, .f32⟩
  | 27 => ⟨S_, .f32⟩
  | 28 => ⟨S8x4096x256, .f32⟩
  | 29 => ⟨S8x4096x256, .f32⟩
  | 30 => ⟨S1x256, .f32⟩
  | 31 => ⟨S256, .f32⟩
  | 32 => ⟨S1x256, .f32⟩
  | 33 => ⟨S256, .f32⟩
  | 34 => ⟨S1x256, .f32⟩
  | 35 => ⟨S256, .f32⟩
  | 36 => ⟨S1x256, .f32⟩
  | 37 => ⟨S256, .f32⟩
  | 38 => ⟨S1x1x256, .f32⟩
  | 39 => ⟨S8x4096x256, .f32⟩
  | 40 => ⟨S8x4096x256, .f32⟩
  | 41 => ⟨S_, .f32⟩
  | 42 => ⟨S256, .f32⟩
  | 43 => ⟨S256, .f32⟩
  | 44 => ⟨S256, .f32⟩
  | 45 => ⟨S256, .f32⟩
  | 46 => ⟨S1x1x256, .f32⟩
  | 47 => ⟨S8x4096x256, .f32⟩
  | 48 => ⟨S8x4096x256, .f32⟩
  | 49 => ⟨S1x1x256, .f32⟩
  | 50 => ⟨S8x4096x256, .f32⟩
  | 51 => ⟨S8x4096x256, .f32⟩
  | 52 => ⟨S8x4096x256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S256, .f32⟩
  | 61 => ⟨S1x1x256, .f32⟩
  | 62 => ⟨S8x4096x256, .f32⟩
  | 63 => ⟨S8x4096x256, .f32⟩
  | 64 => ⟨S_, .f32⟩
  | 65 => ⟨S256, .f32⟩
  | 66 => ⟨S256, .f32⟩
  | 67 => ⟨S256, .f32⟩
  | 68 => ⟨S256, .f32⟩
  | 69 => ⟨S1x1x256, .f32⟩
  | 70 => ⟨S8x4096x256, .f32⟩
  | 71 => ⟨S8x4096x256, .f32⟩
  | 72 => ⟨S1x1x256, .f32⟩
  | 73 => ⟨S8x4096x256, .f32⟩
  | 74 => ⟨S8x4096x256, .f32⟩
  | 75 => ⟨S8x4096x256, .f32⟩
  | 76 => ⟨S8x4096x256, .f32⟩
  | 77 => ⟨S1x1x256, .f32⟩
  | 78 => ⟨S8x4096x256, .f32⟩
  | 79 => ⟨S8x4096x256, .f32⟩
  | 80 => ⟨S1x256, .f32⟩
  | 81 => ⟨S256, .f32⟩
  | 82 => ⟨S1x256, .f32⟩
  | 83 => ⟨S256, .f32⟩
  | 84 => ⟨S1x256, .f32⟩
  | 85 => ⟨S256, .f32⟩
  | 86 => ⟨S1x256, .f32⟩
  | 87 => ⟨S256, .f32⟩
  | 88 => ⟨S1x1x256, .f32⟩
  | 89 => ⟨S8x4096x256, .f32⟩
  | 90 => ⟨S8x4096x256, .f32⟩
  | 91 => ⟨S_, .f32⟩
  | 92 => ⟨S256, .f32⟩
  | 93 => ⟨S256, .f32⟩
  | 94 => ⟨S256, .f32⟩
  | 95 => ⟨S256, .f32⟩
  | 96 => ⟨S1x1x256, .f32⟩
  | 97 => ⟨S8x4096x256, .f32⟩
  | 98 => ⟨S8x4096x256, .f32⟩
  | 99 => ⟨S1x1x256, .f32⟩
  | 100 => ⟨S8x4096x256, .f32⟩
  | 101 => ⟨S8x4096x256, .f32⟩
  | 102 => ⟨S8x4096x256, .f32⟩
  | 103 => ⟨S1x1x256, .f32⟩
  | 104 => ⟨S8x4096x256, .f32⟩
  | 105 => ⟨S8x4096x256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S256, .f32⟩
  | 112 => ⟨S1x256, .f32⟩
  | 113 => ⟨S256, .f32⟩
  | 114 => ⟨S1x1x256, .f32⟩
  | 115 => ⟨S8x4096x256, .f32⟩
  | 116 => ⟨S8x4096x256, .f32⟩
  | 117 => ⟨S_, .f32⟩
  | 118 => ⟨S256, .f32⟩
  | 119 => ⟨S256, .f32⟩
  | 120 => ⟨S256, .f32⟩
  | 121 => ⟨S256, .f32⟩
  | 122 => ⟨S1x1x256, .f32⟩
  | 123 => ⟨S8x4096x256, .f32⟩
  | 124 => ⟨S8x4096x256, .f32⟩
  | 125 => ⟨S1x1x256, .f32⟩
  | 126 => ⟨S8x4096x256, .f32⟩
  | 127 => ⟨S8x4096x256, .f32⟩
  | _ => ⟨S8x4096x256, .f32⟩

abbrev hbmTy0_1 (i : Nat) : BufTy := match i % 128 with
  | 0 => ⟨S8x4096x256, .f32⟩
  | 1 => ⟨S8x4096x256, .f32⟩
  | 2 => ⟨S_, .f32⟩
  | 3 => ⟨S8x4096x256, .f32⟩
  | 4 => ⟨S8x4096x256, .f32⟩
  | 5 => ⟨S_, .f32⟩
  | 6 => ⟨S8x4096x256, .f32⟩
  | 7 => ⟨S8x4096x256, .f32⟩
  | 8 => ⟨S8x4096x256, .f32⟩
  | 9 => ⟨S_, .f32⟩
  | 10 => ⟨S8x4096x256, .f32⟩
  | 11 => ⟨S8x4096x256, .f32⟩
  | 12 => ⟨S8x4096x256, .f32⟩
  | 13 => ⟨S8x4096x256, .f32⟩
  | 14 => ⟨S1x256, .f32⟩
  | 15 => ⟨S256, .f32⟩
  | 16 => ⟨S1x256, .f32⟩
  | 17 => ⟨S256, .f32⟩
  | 18 => ⟨S1x256, .f32⟩
  | 19 => ⟨S256, .f32⟩
  | 20 => ⟨S1x256, .f32⟩
  | 21 => ⟨S256, .f32⟩
  | 22 => ⟨S1x1x256, .f32⟩
  | 23 => ⟨S8x4096x256, .f32⟩
  | 24 => ⟨S8x4096x256, .f32⟩
  | 25 => ⟨S_, .f32⟩
  | 26 => ⟨S256, .f32⟩
  | 27 => ⟨S256, .f32⟩
  | 28 => ⟨S256, .f32⟩
  | 29 => ⟨S256, .f32⟩
  | 30 => ⟨S1x1x256, .f32⟩
  | 31 => ⟨S8x4096x256, .f32⟩
  | 32 => ⟨S8x4096x256, .f32⟩
  | 33 => ⟨S1x1x256, .f32⟩
  | 34 => ⟨S8x4096x256, .f32⟩
  | 35 => ⟨S8x4096x256, .f32⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_3 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_4 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_5 : Ref sig .tc := ⟨.hbm, 130, rfl⟩
abbrev main_v109 : Ref sig .tc := ⟨.hbm, 131, rfl⟩
abbrev main_v110 : Ref sig .tc := ⟨.hbm, 132, rfl⟩
abbrev main_cst_6 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_7 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_8 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩

abbrev nD : Nat := 1
abbrev τ : Topo := Topo.v7x

variable {F : FTy → Type} [FloatOps F]

class Facts₀ : Prop where
  bcast_S_S8x4096x16 : S_.BroadcastsInDim S8x4096x16 (![] : Fin 0 → Fin S8x4096x16.rank)
  bcast_S8x4096x16_S8x4096x16x1_0_1_2 : S8x4096x16.BroadcastsInDim S8x4096x16x1 (![0, 1, 2] : Fin 3 → Fin S8x4096x16x1.rank)
  bcast_S8x4096x256_S8x4096x1x256_0_1_3 : S8x4096x256.BroadcastsInDim S8x4096x1x256 (![0, 1, 3] : Fin 3 → Fin S8x4096x1x256.rank)
  bcast_S8x4096x1x256_S8x4096x16x256_0_1_2_3 : S8x4096x1x256.BroadcastsInDim S8x4096x16x256 (![0, 1, 2, 3] : Fin 4 → Fin S8x4096x16x256.rank)
  reducesTo_S8x4096x16x256_S8x4096x256_d2 : S8x4096x16x256.ReducesTo [2] S8x4096x256
  h_S_ : 0 < S_.numel
  slices_S4x256_S1x256_0_0 : S4x256.Slices ![0, 0] S1x256
  shapeCasts_S1x256_S256 : S1x256.ShapeCasts S256
  slices_S4x256_S1x256_1_0 : S4x256.Slices ![1, 0] S1x256
  slices_S4x256_S1x256_2_0 : S4x256.Slices ![2, 0] S1x256
  slices_S4x256_S1x256_3_0 : S4x256.Slices ![3, 0] S1x256
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S256 : S_.BroadcastsInDim S256 (![] : Fin 0 → Fin S256.rank)
  bcast_S_S8x4096x256 : S_.BroadcastsInDim S8x4096x256 (![] : Fin 0 → Fin S8x4096x256.rank)
  dot_S8x4096x256_S256x256_S8x4096x256_2_1_01_0_n_n_wf : DotDims.WF S8x4096x256 S256x256 S8x4096x256 [2] [1] [0, 1] [0] [] []
  gather_S8x4096x256_S8x4096x16x1_S8x4096x16x256_3_1_0_0_1_3_11256_wf : GatherDims.WF S8x4096x256 S8x4096x16x1 S8x4096x16x256 [3] [1] [0] [1] [0] 3 ![1, 1, 256]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def gather_S8x4096x256_S8x4096x16x1_S8x4096x16x256_3_1_0_0_1_3_11256 : GatherDims S8x4096x256 S8x4096x16x1 S8x4096x16x256 where
  offsetDims := [3]
  collapsedSliceDims := [1]
  operandBatchingDims := [0]
  startIndicesBatchingDims := [0]
  startIndexMap := [1]
  indexVectorDim := 3
  sliceSizes := ![1, 1, 256]
  wf := gather_S8x4096x256_S8x4096x16x1_S8x4096x16x256_3_1_0_0_1_3_11256_wf

class Facts : Prop extends Facts₀ where

variable [Facts]
-- ==== Proof.KernelRun.lean ====
/-
  The two-stage program run as a whole, with its result named.

  The program is a host stretch, the projection stage, a second host stretch (the neighbourhood gather and maximum), the
  gated stage and a closing reshape.  Every weakly fair execution terminates without a fault, leaves the fourteen argument
  arrays as launched, and leaves in the result array the contents the last stretch's operations give from the gated stage's
  output array: the fold `W5` of the five segments over the launch memory, read at the result's buffer.
-/
import proofs.«176502_j21260088115627_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: it terminates, nothing faults, the result array holds the last segment boundary's
    contents at its buffer and every argument array is as launched. -/
theorem run : θ_run defs (onTc (τ := τ) (main (F := F))) ⟨m, fun _ => 0, ρ⟩ (fun r => ∀ c : Dev nD,
      r.2.mem ((c.tc : Thread nD τ).loc main_v21) = W5 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v21 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.KernelIdeal.Whole

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Stage0.lean ====
/-
  The projection stage's output array, as one function of the arrays the stage finds.

  The stage cuts the row matrix `[32768, 256]` into sixteen blocks of 2048 rows; at block `t` it multiplies the block by the
  whole `[256, 256]` matrix into zero and writes the product back as block `t` of the output.  The product of a block of rows
  is, row by row, the product of the whole matrix's rows, so every block written back is the restriction to its rows of one
  array — entry `(r, o)` the inner product of row `r` with column `o` — and the sixteen blocks tile the output.  Hence the
  output array ends as that array.
-/
import proofs.«176502_j21260088115627_1_alg».proof.Proof.Gen.KernelIdeal.Frame
import proofs.«176502_j21260088115627_1_alg».proof.Proof.LibInnerProducts
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- A block of 2048 rows times the `[256, 256]` matrix, into zero, read at `(p, f)`. -/
theorem pay_apply (v0 : Vec Ideal S2048x256 .f32) (v3 : Vec Ideal S256x256 .f32) (p : Fin 2048) (f : Fin 256) :
    k0_pay1 (F := Ideal) v0 v3 (ix2 p f) = ∑ d : Fin 256, v0 (ix2 p d) * v3 (ix2 d f) := by
  unfold k0_pay1
  simp only [truncf, shapeCast_self]
  exact InnerProducts.matmul_zero_apply dot_S2048x256_S256x256_S2048x256_1_0_0_1_n_n rfl none _ _ p f

/-- The whole product: entry `(r, o)` is row `r` of the row matrix against column `o` of the weight matrix. -/
def prod (a : S32768x256.Idx → EReal) (w : S256x256.Idx → EReal) : S32768x256.Idx → EReal := fun i =>
  ∑ d : Fin 256, a (ix2 (i 0) d) * w (ix2 d (i 1))

/-- The block index maps over the sixteen points: the row blocks of the input and of the output move together and are
    numbered by the point; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the sixteen row blocks is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point `t` writes back is block `t` of the whole product. -/
theorem flushed_eq (c : Dev nD) (t : Fin cfg0.N) :
    (dat0 V c).flushed 2 t = ((cfg0.win 2).blk t).view.read (Elt Ideal) (prod (V c main_v0) (V c main_v1)) := by
  show (cfg0.win 2).cut (grid0.coords t) ((dat0 V c).after 2 t) = _
  rw [after0_2]
  unfold out0_2
  rw [View.canon_unit_zero hz]
  simp only [View.ld_unit_zero (S := S2048x256) hz, View.ld_unit_zero (S := S256x256) hz]
  obtain ⟨e0, e1, e2, e3, e4, e5⟩ := idx_facts t
  funext y
  obtain ⟨p, o, rfl⟩ : ∃ (p : Fin 2048) (o : Fin 256), y = ix2 p o := ⟨y 0, y 1, eq_ix2 y⟩
  show k0_pay1 (F := Ideal) (iblk0 V c 0 t) (iblk0 V c 1 t) (ix2 p o) = prod (V c main_v0) (V c main_v1) (((cfg0.win 2).blk t).view.emb (ix2 p o))
  refine (pay_apply (iblk0 V c 0 t) (iblk0 V c 1 t) p o).trans ?_
  unfold prod
  refine Finset.sum_congr rfl fun d _ => ?_
  have ha : iblk0 V c 0 t (ix2 p d) = V c main_v0 (ix2 ((((cfg0.win 2).blk t).view.emb (ix2 p o)) 0) d) := by
    show V c main_v0 (((cfg0.win 0).blk t).view.emb (ix2 p d)) = _
    refine congrArg _ (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * d.val = d.val; omega
  have hb : iblk0 V c 1 t (ix2 d o) = V c main_v1 (ix2 d ((((cfg0.win 2).blk t).view.emb (ix2 p o)) 1)) := by
    show V c main_v1 (((cfg0.win 1).blk t).view.emb (ix2 d o)) = _
    refine congrArg _ (funext fun a => Fin.ext ?_)
    match a with
    | ⟨0, _⟩ => show win0_1.index t (0 : Fin 2) * 256 + 1 * d.val = d.val; omega
    | ⟨1, _⟩ => show win0_1.index t (1 : Fin 2) * 256 + 1 * o.val = win0_2.index t (1 : Fin 2) * 256 + 1 * o.val; omega
  rw [ha, hb]

/-- An index of the output is in point `t`'s block iff each coordinate is in the block's range on its axis. -/
theorem mem_blk (t : Fin cfg0.N) (i : S32768x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v2).slice (win0_2.rect t)).set ↔ _
  rw [View.set_slice_whole, Rect.mem_set_unit]
  exact Iff.rfl

/-- The sixteen blocks cover the output: row `r` is in block `r / 2048`. -/
theorem cover (i : S32768x256.Idx) : ∃ t : Fin cfg0.N, (cfg0.win 2).flush t = true ∧ i ∈ ((cfg0.win 2).blk t).view.set := by
  have hi0 : (i 0).val < 32768 := (i 0).isLt
  have hi1 : (i 1).val < 256 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The output array after the stage is the whole product. -/
theorem final (c : Dev nD) : (dat0 V c).arrAt 2 cfg0.N = prod (V c main_v0) (V c main_v1) :=
  (dat0 V c).arrAt_eq_of_cover 2 (prod (V c main_v0) (V c main_v1)) (fun t _ => flushed_eq V c t) (cover)

end Cert.KernelIdeal.Stage0

end
-- ==== Proof.LibRsqrtQuotient.lean ====
/-
  A factor times a reciprocal square root is the factor divided by the square root, on the extended reals.

  For `0 < s` (the value `⊤` included) `g · rsqrt s = g / sqrt s` for every extended real `g`: at a positive real `s` both
  are `g · (√s)⁻¹`, and at `⊤` the reciprocal square root is `0` and the quotient by `⊤` is `g · 0`. The hypothesis cannot
  be dropped: for `s < 0` both roots take the value `⊥`, and `g / ⊥ = 0` while `g · ⊥` is infinite for `g ≠ 0`; at `s = 0`
  with `g = 0` the product `0 · ⊤` is `0` and the quotient `0 / 0` is `⊥`.
-/
import Idealize.ShloMosaic.PureOps.Ideal

namespace Cert.RsqrtQuotient

open Idealize.ShloMosaic

/-- For `0 < s` on the extended reals (`s = ⊤` included), a factor times the reciprocal square root of `s` is that
    factor divided by the square root of `s`. -/
theorem mul_rsqrt_eq_div_sqrt (g s : EReal) (hs : 0 < s) : g * Ideal.rsqrt s = Ideal.div g (Ideal.sqrt s) := by
  induction s using EReal.rec with
  | bot => exact absurd hs (by simp)
  | coe r =>
    have hr : 0 < r := by exact_mod_cast hs
    rw [Ideal.rsqrt_coe, Ideal.sqrt_coe, if_neg (not_lt.mpr hr.le), if_neg hr.ne', if_neg (not_lt.mpr hr.le),
      Ideal.div_coe (Real.sqrt_pos.mpr hr).ne', one_div]
  | top =>
    rw [Ideal.rsqrt_top, Ideal.sqrt_top, Ideal.div, if_neg (by simp), EReal.inv_top]

end Cert.RsqrtQuotient
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.RowSpec.lean ====
/-
  One row of the gated two-branch layer, as a function of the row's inputs and the layer's parameters, on the extended reals.

  A row carries 256 channels.  A table `p` of four rows holds, per channel, a scale `γ = p 0`, a shift `β = p 1`, a mean
  `μ = p 2` and a variance `σ² = p 3`; normalising a row `v` by the table gives `(v - μ) · s + β` with the per-channel factor
  `s = γ / √(σ² + ε)`.  The factor is written in two ways: as the product `γ · (σ² + ε)^(-1/2)` with the reciprocal square
  root, and as the quotient `γ / √(σ² + ε)`.  For `σ² ≥ 0` and `ε > 0` the argument `σ² + ε` is positive and the two are
  equal (for a negative argument they are not: both roots are then `⊥`, the quotient by `⊥` is `0` and the product with `⊥`
  is infinite).

  The layer: the neighbourhood row `xk` goes through the matrix `Wl` and the table `pl` (the local branch `x₁`), the point's
  own row `x` through `Wg` and `pg` (the global branch `x₂`); their sum goes through `W1`, a bias `b1` and the table `p1`,
  then through `W2`, `b2` and `p2`, and the logistic function of that is the gate `a`; the result is the table `pf` applied
  to `a · x₁ + (1 - a) · x₂`.  A matrix `W` acts on a row as `o ↦ ∑ c, v c · W o c`.
-/
import Idealize.ShloMosaic.PureOps.Ideal
import proofs.«176502_j21260088115627_1_alg».proof.Proof.LibRsqrtQuotient
import proofs.«176502_j21260088115627_1_alg».proof.Proof.LibWords

noncomputable section

namespace Cert.GatedRows

open Idealize.ShloMosaic
open scoped BigOperators

/-- A row of 256 channels. -/
abbrev Row := Fin 256 → EReal
/-- A 256 × 256 matrix, `W o c` its entry at output channel `o` and input channel `c`. -/
abbrev Mat := Fin 256 → Fin 256 → EReal
/-- A table of per-channel scale, shift, mean and variance. -/
abbrev Tab := Fin 4 → Fin 256 → EReal

/-- The variance offset `ε`: the value of the 32-bit float word of `1e-5`. -/
def eps : EReal := Ideal.ofBits .f32 0x3727C5AC#32
/-- The value of the 32-bit float word of `1`. -/
def one : EReal := Ideal.ofBits .f32 0x3F800000#32

/-- The offset is a positive real: the word's exponent field is `110` and its significand field `0x27C5AC`, so its value
    is `(2^23 + 0x27C5AC) · 2^(110 - 127 - 23)`. -/
theorem eps_pos : 0 < eps := by
  unfold eps
  simp [Ideal.ofBits, Ideal.ieee, -EReal.coe_mul]
  <;> first | positivity | norm_num

theorem one_eq : one = 1 := by
  unfold one
  rw [Cert.Proof.Words.ofBits_f32_one]; rfl

/-- A matrix applied to a row. -/
def lin (W : Mat) (v : Row) : Row := fun o => ∑ c : Fin 256, v c * W o c

/-- The per-channel factor as a product with the reciprocal square root. -/
def scaleMul (p : Tab) : Row := fun o => p 0 o * Ideal.rsqrt (p 3 o + eps)
/-- The per-channel factor as a quotient by the square root. -/
def scaleDiv (p : Tab) : Row := fun o => Ideal.div (p 0 o) (Ideal.sqrt (p 3 o + eps))

/-- Normalising a row by a table with a given per-channel factor. -/
def norm (s : Row) (p : Tab) (v : Row) : Row := fun o => (v o - p 2 o) * s o + p 1 o

/-- The gated layer on one row, for a given way `sc` of writing a table's per-channel factor. -/
def fuse (sc : Tab → Row) (xk x : Row) (Wl Wg W1 W2 : Mat) (b1 b2 : Row) (pl pg p1 p2 pf : Tab) : Row :=
  let x1 : Row := norm (sc pl) pl (lin Wl xk)
  let x2 : Row := norm (sc pg) pg (lin Wg x)
  let h : Row := norm (sc p1) p1 (fun o => lin W1 (fun c => x1 c + x2 c) o + b1 o)
  let z : Row := norm (sc p2) p2 (fun o => lin W2 h o + b2 o)
  let a : Row := fun o => Ideal.logistic (z o)
  norm (sc pf) pf (fun o => a o * x1 o + (one - a o) * x2 o)

/-- With a non-negative variance row the two ways of writing the per-channel factor agree. -/
theorem scaleMul_eq_scaleDiv (p : Tab) (hp : ∀ o, 0 ≤ p 3 o) : scaleMul p = scaleDiv p :=
  funext fun o => Cert.RsqrtQuotient.mul_rsqrt_eq_div_sqrt (p 0 o) (p 3 o + eps)
    (lt_of_lt_of_le eps_pos (le_add_of_nonneg_left (hp o)))

/-- So, for five tables with non-negative variance rows, the layer written with products by reciprocal square roots is
    the layer written with quotients by square roots. -/
theorem fuse_mul_eq_fuse_div (xk x : Row) (Wl Wg W1 W2 : Mat) (b1 b2 : Row) (pl pg p1 p2 pf : Tab)
    (hl : ∀ o, 0 ≤ pl 3 o) (hg : ∀ o, 0 ≤ pg 3 o) (h1 : ∀ o, 0 ≤ p1 3 o) (h2 : ∀ o, 0 ≤ p2 3 o) (hf : ∀ o, 0 ≤ pf 3 o) :
    fuse scaleMul xk x Wl Wg W1 W2 b1 b2 pl pg p1 p2 pf = fuse scaleDiv xk x Wl Wg W1 W2 b1 b2 pl pg p1 p2 pf := by
  unfold fuse
  rw [scaleMul_eq_scaleDiv pl hl, scaleMul_eq_scaleDiv pg hg, scaleMul_eq_scaleDiv p1 h1, scaleMul_eq_scaleDiv p2 h2,
    scaleMul_eq_scaleDiv pf hf]

end Cert.GatedRows

end
-- ==== Proof.KernelRowRead.lean ====
/-
  The gated stage's arithmetic on one block of 1024 rows, read at a row `p` and a channel `o`.

  The stage holds a block `[1024, 256]` of neighbourhood rows and a block of the points' own rows, four weight matrices stored
  transposed (`[input channel, output channel]`), two bias vectors and five tables `[4, 256]` of per-channel scale, shift, mean
  and variance.  Each intermediate it computes is, at row `p`, a function of row `p` of its inputs only: a matrix product into
  zero is at `(p, o)` the inner product of row `p` with column `o`; a table's row `k`, taken as a slice `[1, 256]`, cast to a
  vector and spread again over the 1024 rows, is at `(p, o)` the table's entry `(k, o)`; a change of float format is the
  identity on the extended reals.  So the block the stage stores is, row by row, the gated layer of `RowSpec` with the
  per-channel factor written as a product with the reciprocal square root.
-/
import proofs.«176502_j21260088115627_1_alg».proof.Proof.Gen.KernelIdeal.Skeleton
import proofs.«176502_j21260088115627_1_alg».proof.Proof.RowSpec
import proofs.«176502_j21260088115627_1_alg».proof.Proof.LibInnerProducts
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.RowRead

open Cert.KernelIdeal Cert.KernelIdeal.Gen Idealize.ShloMosaic Idealize.ShloMosaic.ValueIdx Cert.GatedRows
open scoped BigOperators

/-- Row `p` of a block of 1024 rows. -/
def rowOf (x : S1024x256.Idx → EReal) (p : Fin 1024) : Row := fun c => x (ix2 p c)
/-- A weight matrix stored transposed, `[input channel, output channel]`, as the matrix it stands for. -/
def matT (w : S256x256.Idx → EReal) : Mat := fun o c => w (ix2 c o)
/-- A `[4, 256]` array as a table. -/
def tabOf (t : S4x256.Idx → EReal) : Tab := fun k o => t (ix2 k o)
/-- A `[256]` array as a row. -/
def vecOf (b : S256.Idx → EReal) : Row := fun o => b (ix1 o)

section Layout
variable {α : Type}

/-- Row 0 of a table, sliced out and cast to a vector, read at a channel. -/
theorem tab_row0 (T : S4x256.Idx → α) (hs : S4x256.Slices ![0, 0] S1x256) (hc : S1x256.ShapeCasts S256) (o : Fin 256) :
    shapeCast S256 (extractStridedSlice S1x256 ![0, 0] T hs) hc (ix1 o) = T (ix2 (0 : Fin 4) o) :=
  (shapeCast_1a_a_apply _ hc o).trans (slice2_axis0_apply 0 T hs (0 : Fin 1) o (0 : Fin 4) rfl)
/-- Row 1 of a table, sliced out and cast to a vector, read at a channel. -/
theorem tab_row1 (T : S4x256.Idx → α) (hs : S4x256.Slices ![1, 0] S1x256) (hc : S1x256.ShapeCasts S256) (o : Fin 256) :
    shapeCast S256 (extractStridedSlice S1x256 ![1, 0] T hs) hc (ix1 o) = T (ix2 (1 : Fin 4) o) :=
  (shapeCast_1a_a_apply _ hc o).trans (slice2_axis0_apply 1 T hs (0 : Fin 1) o (1 : Fin 4) rfl)
/-- Row 2 of a table, sliced out and cast to a vector, read at a channel. -/
theorem tab_row2 (T : S4x256.Idx → α) (hs : S4x256.Slices ![2, 0] S1x256) (hc : S1x256.ShapeCasts S256) (o : Fin 256) :
    shapeCast S256 (extractStridedSlice S1x256 ![2, 0] T hs) hc (ix1 o) = T (ix2 (2 : Fin 4) o) :=
  (shapeCast_1a_a_apply _ hc o).trans (slice2_axis0_apply 2 T hs (0 : Fin 1) o (2 : Fin 4) rfl)
/-- Row 3 of a table, sliced out and cast to a vector, read at a channel. -/
theorem tab_row3 (T : S4x256.Idx → α) (hs : S4x256.Slices ![3, 0] S1x256) (hc : S1x256.ShapeCasts S256) (o : Fin 256) :
    shapeCast S256 (extractStridedSlice S1x256 ![3, 0] T hs) hc (ix1 o) = T (ix2 (3 : Fin 4) o) :=
  (shapeCast_1a_a_apply _ hc o).trans (slice2_axis0_apply 3 T hs (0 : Fin 1) o (3 : Fin 4) rfl)

/-- A vector of 256 channels, cast to one row and spread over 1024 rows, read at `(p, o)`. -/
theorem bcast_row (v : S256.Idx → α) (h1 : S256.ShapeCasts S1x256) (h2 : S1x256.Broadcasts S1024x256) (p : Fin 1024) (o : Fin 256) :
    broadcastTo S1024x256 (shapeCast S1x256 v h1) h2 (ix2 p o) = v (ix1 o) :=
  (broadcastTo_1b_ab_apply _ h2 p o).trans (shapeCast_a_1a_apply v h1 (0 : Fin 1) o)

end Layout

/-- A block of 1024 rows times a `[256, 256]` matrix, into zero, read at `(p, f)`: row `p` against column `f`. -/
theorem matmul_rows {φ₁ φ₂ : FTy} (a : FVec Ideal S1024x256 φ₁) (w : FVec Ideal S256x256 φ₂) (p : Fin 1024) (f : Fin 256) :
    matmul dot_S1024x256_S256x256_S1024x256_1_0_0_1_n_n none a w (constant (F := Ideal) S1024x256 .f32 0x00000000#32) (ix2 p f)
      = ∑ d : Fin 256, a (ix2 p d) * w (ix2 d f) :=
  InnerProducts.matmul_zero_apply dot_S1024x256_S256x256_S1024x256_1_0_0_1_n_n rfl none a w p f

/-- The local branch before the gate: the neighbourhood block through its matrix and its table. -/
theorem pay4_apply (v0 : Vec Ideal S1024x256 .f32) (v4 : Vec Ideal S256x256 .f32) (v18 : Vec Ideal S4x256 .f32) (p : Fin 1024) (o : Fin 256) :
    k1_pay4 (F := Ideal) v0 v4 v18 (ix2 p o)
      = norm (scaleMul (tabOf v18)) (tabOf v18) (lin (matT v4) (rowOf v0 p)) o := by
  unfold k1_pay4
  simp only [addf, mulf, subf, rsqrt, truncf, broadcast, bcast_row, tab_row0, tab_row1, tab_row2, tab_row3, matmul_rows,
    shapeCast_self]
  rfl

/-- The points' own block times its matrix. -/
theorem pay5_apply (v2 : Vec Ideal S1024x256 .f32) (v7 : Vec Ideal S256x256 .f32) (p : Fin 1024) (o : Fin 256) :
    k1_pay5 (F := Ideal) v2 v7 (ix2 p o) = lin (matT v7) (rowOf v2 p) o := by
  unfold k1_pay5
  simp only [truncf, matmul_rows, shapeCast_self]
  rfl

/-- The two later weight matrices are only changed in float format on the way into their products. -/
theorem pay2_apply (v10 : Vec Ideal S256x256 .f32) (c o : Fin 256) : k1_pay2 (F := Ideal) v10 (ix2 c o) = v10 (ix2 c o) := by
  unfold k1_pay2
  simp only [truncf, shapeCast_self]
  rfl
theorem pay3_apply (v13 : Vec Ideal S256x256 .f32) (c o : Fin 256) : k1_pay3 (F := Ideal) v13 (ix2 c o) = v13 (ix2 c o) := by
  unfold k1_pay3
  simp only [truncf, shapeCast_self]
  rfl

/-- The global branch: the product normalised by its table. -/
theorem pay6_apply (v41 : FVec Ideal S1024x256 .f32) (v42 : Vec Ideal S4x256 .f32) (p : Fin 1024) (o : Fin 256) :
    k1_pay6 (F := Ideal) v41 v42 (ix2 p o)
      = norm (scaleMul (tabOf v42)) (tabOf v42) (fun c => v41 (ix2 p c)) o := by
  unfold k1_pay6
  simp only [addf, mulf, subf, rsqrt, broadcast, bcast_row, tab_row0, tab_row1, tab_row2, tab_row3]
  rfl

/-- The first gate layer: the sum of the two branches through a matrix, a bias and a table. -/
theorem pay7_apply (v12 : FVec Ideal S256x256 .bf16) (v39 v41 : FVec Ideal S1024x256 .f32) (v42 : Vec Ideal S4x256 .f32)
    (v67 : Vec Ideal S256 .f32) (v71 : Vec Ideal S4x256 .f32) (p : Fin 1024) (o : Fin 256) :
    k1_pay7 (F := Ideal) v12 v39 v41 v42 v67 v71 (ix2 p o)
      = norm (scaleMul (tabOf v71)) (tabOf v71)
          (fun o' => lin (fun o'' c => v12 (ix2 c o'')) (fun c => v39 (ix2 p c) + k1_pay6 (F := Ideal) v41 v42 (ix2 p c)) o' + v67 (ix1 o')) o := by
  unfold k1_pay7
  simp only [addf, mulf, subf, rsqrt, truncf, broadcast, bcast_row, tab_row0, tab_row1, tab_row2, tab_row3, matmul_rows]
  rfl

/-- The second gate layer, the logistic gate, the gated mix of the two branches, and the last table's mean taken off. -/
theorem pay9_apply (v15 : FVec Ideal S256x256 .bf16) (v39 v63 : FVec Ideal S1024x256 .f32) (v93 : FVec Ideal S1024x256 .bf16)
    (v95 : Vec Ideal S256 .f32) (v99 v127 : Vec Ideal S4x256 .f32) (p : Fin 1024) (o : Fin 256) :
    k1_pay9 (F := Ideal) v15 v39 v63 v93 v95 v99 v127 (ix2 p o)
      = (Ideal.logistic (norm (scaleMul (tabOf v99)) (tabOf v99)
            (fun o' => lin (fun o'' c => v15 (ix2 c o'')) (fun c => v93 (ix2 p c)) o' + v95 (ix1 o')) o) * v39 (ix2 p o)
          + (one - Ideal.logistic (norm (scaleMul (tabOf v99)) (tabOf v99)
            (fun o' => lin (fun o'' c => v15 (ix2 c o'')) (fun c => v93 (ix2 p c)) o' + v95 (ix1 o')) o)) * v63 (ix2 p o))
        - tabOf v127 2 o := by
  unfold k1_pay9
  simp only [addf, mulf, subf, rsqrt, logistic, broadcast, bcast_row, tab_row0, tab_row1, tab_row2, tab_row3, matmul_rows]
  rfl

/-- The last table's per-channel factor, spread over the rows. -/
theorem pay10_apply (v127 : Vec Ideal S4x256 .f32) (p : Fin 1024) (o : Fin 256) :
    k1_pay10 (F := Ideal) v127 (ix2 p o) = scaleMul (tabOf v127) o := by
  unfold k1_pay10
  simp only [addf, mulf, rsqrt, broadcast, bcast_row, tab_row0, tab_row3]
  rfl

/-- The last table's shift. -/
theorem pay8_apply (v127 : Vec Ideal S4x256 .f32) (o : Fin 256) : k1_pay8 (F := Ideal) v127 (ix1 o) = tabOf v127 1 o := by
  unfold k1_pay8
  simp only [tab_row1]
  rfl

/-- The stored block: the centred mix times the factor, plus the shift. -/
theorem pay1_apply (v131 : FVec Ideal S256 .f32) (v142 v144 : FVec Ideal S1024x256 .f32) (p : Fin 1024) (o : Fin 256) :
    k1_pay1 (F := Ideal) v131 v142 v144 (ix2 p o) = v142 (ix2 p o) * v144 (ix2 p o) + v131 (ix1 o) := by
  unfold k1_pay1
  simp only [addf, mulf, bcast_row]
  rfl

/-- The block the stage stores, as one function of the blocks it loads. -/
def blockOut (x0 x1 : Vec Ideal S1024x256 .f32) (x2 x3 x4 : Vec Ideal S256x256 .f32) (x5 : Vec Ideal S256 .f32)
    (x6 : Vec Ideal S256x256 .f32) (x7 : Vec Ideal S256 .f32) (x8 x9 x10 x11 x12 : Vec Ideal S4x256 .f32) : FVec Ideal S1024x256 .f32 :=
  k1_pay1 (k1_pay8 x12)
    (k1_pay9 (k1_pay3 x6) (k1_pay4 x0 x2 x8) (k1_pay6 (k1_pay5 x1 x3) x9)
      (k1_pay7 (k1_pay2 x4) (k1_pay4 x0 x2 x8) (k1_pay5 x1 x3) x9 x5 x10) x7 x11 x12)
    (k1_pay10 x12)

/-- Row `p` of the stored block is the gated layer of row `p` of the two loaded blocks. -/
theorem blockOut_apply (x0 x1 : Vec Ideal S1024x256 .f32) (x2 x3 x4 : Vec Ideal S256x256 .f32) (x5 : Vec Ideal S256 .f32)
    (x6 : Vec Ideal S256x256 .f32) (x7 : Vec Ideal S256 .f32) (x8 x9 x10 x11 x12 : Vec Ideal S4x256 .f32) (p : Fin 1024) (o : Fin 256) :
    blockOut x0 x1 x2 x3 x4 x5 x6 x7 x8 x9 x10 x11 x12 (ix2 p o)
      = fuse scaleMul (rowOf x0 p) (rowOf x1 p) (matT x2) (matT x3) (matT x4) (matT x6) (vecOf x5) (vecOf x7)
          (tabOf x8) (tabOf x9) (tabOf x10) (tabOf x11) (tabOf x12) o := by
  unfold blockOut fuse
  simp only [pay1_apply, pay8_apply, pay9_apply, pay10_apply, pay7_apply, pay6_apply, pay5_apply, pay4_apply, pay2_apply,
    pay3_apply]
  rfl

end Cert.KernelIdeal.RowRead

end
-- ==== Proof.Stage1.lean ====
/-
  The gated stage's output array, as one function of the arrays the stage finds.

  The stage cuts the neighbourhood matrix and the row matrix, both `[32768, 256]`, into thirty-two blocks of 1024 rows; at
  block `t` it reads block `t` of each together with the whole of the four weight matrices, the two bias vectors and the five
  tables, and writes back block `t` of the output.  Row `p` of the block it stores is the gated layer of row `p` of the two
  blocks it loaded, so every block written back is the restriction to its rows of one array — row `r` the gated layer of
  row `r` of the two matrices — and the thirty-two blocks tile the output.  Hence the output array ends as that array.
-/
import proofs.«176502_j21260088115627_1_alg».proof.Proof.Gen.KernelIdeal.Frame
import proofs.«176502_j21260088115627_1_alg».proof.Proof.KernelRowRead
import Idealize.ShloMosaic.Lib.Pipeline.Value
import Idealize.ShloMosaic.Lib.ValueIdx

set_option maxRecDepth 16384

noncomputable section

namespace Cert.KernelIdeal.Stage1

open Cert.KernelIdeal Cert.KernelIdeal.Gen Cert.KernelIdeal.RowRead Cert.GatedRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The whole output: row `r` is the gated layer of row `r` of the neighbourhood matrix `xk` and of the row matrix `x`, with
    the weight matrices stored transposed. -/
def gated (xk x : S32768x256.Idx → EReal) (wl wg w1 w2 : S256x256.Idx → EReal) (b1 b2 : S256.Idx → EReal)
    (tl tg t1 t2 tf : S4x256.Idx → EReal) : S32768x256.Idx → EReal := fun i =>
  fuse scaleMul (fun ch => xk (ix2 (i 0) ch)) (fun ch => x (ix2 (i 0) ch)) (matT wl) (matT wg) (matT w1) (matT w2)
    (vecOf b1) (vecOf b2) (tabOf tl) (tabOf tg) (tabOf t1) (tabOf t2) (tabOf tf) (i 1)

/-- The gated layer of equal inputs at equal channels is equal. -/
theorem fuse_congr {sc : Tab → Row} {xk xk' x x' : Row} {Wl Wl' Wg Wg' W1 W1' W2 W2' : Mat} {b1 b1' b2 b2' : Row}
    {pl pl' pg pg' p1 p1' p2 p2' pf pf' : Tab} {o o' : Fin 256}
    (hxk : xk = xk') (hx : x = x') (hWl : Wl = Wl') (hWg : Wg = Wg') (hW1 : W1 = W1') (hW2 : W2 = W2') (hb1 : b1 = b1')
    (hb2 : b2 = b2') (hpl : pl = pl') (hpg : pg = pg') (hp1 : p1 = p1') (hp2 : p2 = p2') (hpf : pf = pf') (ho : o = o') :
    fuse sc xk x Wl Wg W1 W2 b1 b2 pl pg p1 p2 pf o = fuse sc xk' x' Wl' Wg' W1' W2' b1' b2' pl' pg' p1' p2' pf' o' := by
  subst hxk hx hWl hWg hW1 hW2 hb1 hb2 hpl hpg hp1 hp2 hpf ho
  rfl

/-- The block index maps over the thirty-two points: the row blocks of the two inputs and of the output move together;
    every other block index is zero. -/
theorem idx_facts : ∀ t : Fin cfg1.N, win1_0.index t (0 : Fin 2) = win1_13.index t (0 : Fin 2)
    ∧ win1_0.index t (1 : Fin 2) = 0
    ∧ win1_1.index t (0 : Fin 2) = win1_13.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (1 : Fin 2) = 0
    ∧ win1_13.index t (0 : Fin 2) ≤ 31 :=
  (by decide +kernel : ∀ t : Fin grid1.N, _)

/-- Every one of the thirty-two row blocks is some point's. -/
theorem idx_onto : ∀ q : Fin 32, ∃ t : Fin cfg1.N, win1_13.index t = ![q.val, 0] :=
  (by decide +kernel : ∀ q : Fin 32, ∃ t : Fin grid1.N, win1_13.index t = ![q.val, 0])

/-- What point `t` writes back is block `t` of the whole output. -/
theorem flushed_eq (c : Dev nD) (t : Fin cfg1.N) :
    (dat1 V c).flushed 13 t = ((cfg1.win 13).blk t).view.read (Elt Ideal)
      (gated (V c main_v15) (V c main_v0) (V c main_v16) (V c main_v17) (V c main_v18) (V c main_v19) (V c main_arg6) (V c main_arg8)
        (V c main_arg9) (V c main_arg10) (V c main_arg11) (V c main_arg12) (V c main_arg13)) := by
  show (cfg1.win 13).cut (grid1.coords t) ((dat1 V c).after 13 t) = _
  rw [after1_13]
  unfold out1_13
  rw [View.canon_unit_zero hz]
  simp only [View.ld_unit_zero (S := S1024x256) hz, View.ld_unit_zero (S := S256x256) hz, View.ld_unit_zero (S := S4x256) hz,
    View.ld_unit_zero (S := S256) hz1]
  obtain ⟨e0, e1, e2, e3, e4, e5, e6, e7, e8, e9, e10, e11, e12, e13, e14, e15, e16, e17, e18, e19, e20, e21, e22, e23, e24, e25⟩ := idx_facts t
  funext y
  obtain ⟨p, o, rfl⟩ : ∃ (p : Fin 1024) (o : Fin 256), y = ix2 p o := ⟨y 0, y 1, eq_ix2 y⟩
  show blockOut (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) (ix2 p o)
    = gated (V c main_v15) (V c main_v0) (V c main_v16) (V c main_v17) (V c main_v18) (V c main_v19) (V c main_arg6) (V c main_arg8)
        (V c main_arg9) (V c main_arg10) (V c main_arg11) (V c main_arg12) (V c main_arg13) (((cfg1.win 13).blk t).view.emb (ix2 p o))
  refine (blockOut_apply (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (iblk1 V c 12 t) p o).trans ?_
  unfold gated
  have h0 : rowOf (iblk1 V c 0 t) p = fun ch => V c main_v15 (ix2 ((((cfg1.win 13).blk t).view.emb (ix2 p o)) 0) ch) := funext fun ch => by
    show V c main_v15 (((cfg1.win 0).blk t).view.emb (ix2 p ch)) = _
    refine congrArg _ (funext fun a => Fin.ext ?_)
    match a with
    | ⟨0, _⟩ => show win1_0.index t (0 : Fin 2) * 1024 + 1 * p.val = win1_13.index t (0 : Fin 2) * 1024 + 1 * p.val; omega
    | ⟨1, _⟩ => show win1_0.index t (1 : Fin 2) * 256 + 1 * ch.val = ch.val; omega
  have h1 : rowOf (iblk1 V c 1 t) p = fun ch => V c main_v0 (ix2 ((((cfg1.win 13).blk t).view.emb (ix2 p o)) 0) ch) := funext fun ch => by
    show V c main_v0 (((cfg1.win 1).blk t).view.emb (ix2 p ch)) = _
    refine congrArg _ (funext fun a => Fin.ext ?_)
    match a with
    | ⟨0, _⟩ => show win1_1.index t (0 : Fin 2) * 1024 + 1 * p.val = win1_13.index t (0 : Fin 2) * 1024 + 1 * p.val; omega
    | ⟨1, _⟩ => show win1_1.index t (1 : Fin 2) * 256 + 1 * ch.val = ch.val; omega
  have h2 : matT (iblk1 V c 2 t) = matT (V c main_v16) := funext fun o' => funext fun c' => by
    show V c main_v16 (((cfg1.win 2).blk t).view.emb (ix2 c' o')) = V c main_v16 (ix2 c' o')
    refine congrArg _ (funext fun a => Fin.ext ?_)
    match a with
    | ⟨0, _⟩ => show win1_2.index t (0 : Fin 2) * 256 + 1 * c'.val = c'.val; omega
    | ⟨1, _⟩ => show win1_2.index t (1 : Fin 2) * 256 + 1 * o'.val = o'.val; omega
  have h3 : matT (iblk1 V c 3 t) = matT (V c main_v17) := funext fun o' => funext fun c' => by
    show V c main_v17 (((cfg1.win 3).blk t).view.emb (ix2 c' o')) = V c main_v17 (ix2 c' o')
    refine congrArg _ (funext fun a => Fin.ext ?_)
    match a with
    | ⟨0, _⟩ => show win1_3.index t (0 : Fin 2) * 256 + 1 * c'.val = c'.val; omega
    | ⟨1, _⟩ => show win1_3.index t (1 : Fin 2) * 256 + 1 * o'.val = o'.val; omega
  have h4 : matT (iblk1 V c 4 t) = matT (V c main_v18) := funext fun o' => funext fun c' => by
    show V c main_v18 (((cfg1.win 4).blk t).view.emb (ix2 c' o')) = V c main_v18 (ix2 c' o')
    refine congrArg _ (funext fun a => Fin.ext ?_)
    match a with
    | ⟨0, _⟩ => show win1_4.index t (0 : Fin 2) * 256 + 1 * c'.val = c'.val; omega
    | ⟨1, _⟩ => show win1_4.index t (1 : Fin 2) * 256 + 1 * o'.val = o'.val; omega
  have h5 : vecOf (iblk1 V c 5 t) = vecOf (V c main_arg6) := funext fun o' => by
    show V c main_arg6 (((cfg1.win 5).blk t).view.emb (ix1 o')) = V c main_arg6 (ix1 o')
    refine congrArg _ (funext fun a => Fin.ext ?_)
    match a with
    | ⟨0, _⟩ => show win1_5.index t (0 : Fin 1) * 256 + 1 * o'.val = o'.val; omega
  have h6 : matT (iblk1 V c 6 t) = matT (V c main_v19) := funext fun o' => funext fun c' => by
    show V c main_v19 (((cfg1.win 6).blk t).view.emb (ix2 c' o')) = V c main_v19 (ix2 c' o')
    refine congrArg _ (funext fun a => Fin.ext ?_)
    match a with
    | ⟨0, _⟩ => show win1_6.index t (0 : Fin 2) * 256 + 1 * c'.val = c'.val; omega
    | ⟨1, _⟩ => show win1_6.index t (1 : Fin 2) * 256 + 1 * o'.val = o'.val; omega
  have h7 : vecOf (iblk1 V c 7 t) = vecOf (V c main_arg8) := funext fun o' => by
    show V c main_arg8 (((cfg1.win 7).blk t).view.emb (ix1 o')) = V c main_arg8 (ix1 o')
    refine congrArg _ (funext fun a => Fin.ext ?_)
    match a with
    | ⟨0, _⟩ => show win1_7.index t (0 : Fin 1) * 256 + 1 * o'.val = o'.val; omega
  have h8 : tabOf (iblk1 V c 8 t) = tabOf (V c main_arg9) := funext fun k' => funext fun o' => by
    show V c main_arg9 (((cfg1.win 8).blk t).view.emb (ix2 k' o')) = V c main_arg9 (ix2 k' o')
    refine congrArg _ (funext fun a => Fin.ext ?_)
    match a with
    | ⟨0, _⟩ => show win1_8.index t (0 : Fin 2) * 4 + 1 * k'.val = k'.val; omega
    | ⟨1, _⟩ => show win1_8.index t (1 : Fin 2) * 256 + 1 * o'.val = o'.val; omega
  have h9 : tabOf (iblk1 V c 9 t) = tabOf (V c main_arg10) := funext fun k' => funext fun o' => by
    show V c main_arg10 (((cfg1.win 9).blk t).view.emb (ix2 k' o')) = V c main_arg10 (ix2 k' o')
    refine congrArg _ (funext fun a => Fin.ext ?_)
    match a with
    | ⟨0, _⟩ => show win1_9.index t (0 : Fin 2) * 4 + 1 * k'.val = k'.val; omega
    | ⟨1, _⟩ => show win1_9.index t (1 : Fin 2) * 256 + 1 * o'.val = o'.val; omega
  have h10 : tabOf (iblk1 V c 10 t) = tabOf (V c main_arg11) := funext fun k' => funext fun o' => by
    show V c main_arg11 (((cfg1.win 10).blk t).view.emb (ix2 k' o')) = V c main_arg11 (ix2 k' o')
    refine congrArg _ (funext fun a => Fin.ext ?_)
    match a with
    | ⟨0, _⟩ => show win1_10.index t (0 : Fin 2) * 4 + 1 * k'.val = k'.val; omega
    | ⟨1, _⟩ => show win1_10.index t (1 : Fin 2) * 256 + 1 * o'.val = o'.val; omega
  have h11 : tabOf (iblk1 V c 11 t) = tabOf (V c main_arg12) := funext fun k' => funext fun o' => by
    show V c main_arg12 (((cfg1.win 11).blk t).view.emb (ix2 k' o')) = V c main_arg12 (ix2 k' o')
    refine congrArg _ (funext fun a => Fin.ext ?_)
    match a with
    | ⟨0, _⟩ => show win1_11.index t (0 : Fin 2) * 4 + 1 * k'.val = k'.val; omega
    | ⟨1, _⟩ => show win1_11.index t (1 : Fin 2) * 256 + 1 * o'.val = o'.val; omega
  have h12 : tabOf (iblk1 V c 12 t) = tabOf (V c main_arg13) := funext fun k' => funext fun o' => by
    show V c main_arg13 (((cfg1.win 12).blk t).view.emb (ix2 k' o')) = V c main_arg13 (ix2 k' o')
    refine congrArg _ (funext fun a => Fin.ext ?_)
    match a with
    | ⟨0, _⟩ => show win1_12.index t (0 : Fin 2) * 4 + 1 * k'.val = k'.val; omega
    | ⟨1, _⟩ => show win1_12.index t (1 : Fin 2) * 256 + 1 * o'.val = o'.val; omega
  have ho : (((cfg1.win 13).blk t).view.emb (ix2 p o)) 1 = o := Fin.ext (by
    show win1_13.index t (1 : Fin 2) * 256 + 1 * o.val = o.val; omega)
  exact fuse_congr h0 h1 h2 h3 h4 h6 h5 h7 h8 h9 h10 h11 h12 ho.symm

/-- An index of the output is in point `t`'s block iff each coordinate is in the block's range on its axis. -/
theorem mem_blk (t : Fin cfg1.N) (i : S32768x256.Idx) :
    i ∈ ((cfg1.win 13).blk t).view.set ↔ ∀ a : Fin 2, win1_13.index t a * S1024x256.size a ≤ (i a).val ∧ (i a).val < win1_13.index t a * S1024x256.size a + S1024x256.size a := by
  show i ∈ ((View.whole main_v20).slice (win1_13.rect t)).set ↔ _
  rw [View.set_slice_whole, Rect.mem_set_unit]
  exact Iff.rfl

/-- The thirty-two blocks cover the output: row `r` is in block `r / 1024`. -/
theorem cover (i : S32768x256.Idx) : ∃ t : Fin cfg1.N, (cfg1.win 13).flush t = true ∧ i ∈ ((cfg1.win 13).blk t).view.set := by
  have hi0 : (i 0).val < 32768 := (i 0).isLt
  have hi1 : (i 1).val < 256 := (i 1).isLt
  obtain ⟨t, ht⟩ := idx_onto ⟨(i 0).val / 1024, by omega⟩
  have q0 : win1_13.index t (0 : Fin 2) = (i 0).val / 1024 := congrFun ht 0
  have q1 : win1_13.index t (1 : Fin 2) = 0 := congrFun ht 1
  refine ⟨t, flush1_13 t, ?_⟩
  rw [mem_blk]
  intro a
  match a with
  | ⟨0, _⟩ => show win1_13.index t (0 : Fin 2) * 1024 ≤ (i 0).val ∧ (i 0).val < win1_13.index t (0 : Fin 2) * 1024 + 1024; omega
  | ⟨1, _⟩ => show win1_13.index t (1 : Fin 2) * 256 ≤ (i 1).val ∧ (i 1).val < win1_13.index t (1 : Fin 2) * 256 + 256; omega

/-- The output array after the stage is the whole output. -/
theorem final (c : Dev nD) : (dat1 V c).arrAt 13 cfg1.N
    = gated (V c main_v15) (V c main_v0) (V c main_v16) (V c main_v17) (V c main_v18) (V c main_v19) (V c main_arg6) (V c main_arg8)
        (V c main_arg9) (V c main_arg10) (V c main_arg11) (V c main_arg12) (V c main_arg13) :=
  (dat1 V c).arrAt_eq_of_cover 13 _ (fun t _ => flushed_eq V c t) cover

end Cert.KernelIdeal.Stage1

end
-- ==== Proof.KernelChain.lean ====
/-
  The host operations around the two stages, read back to the argument arrays.

  Before the projection stage the input `[8, 4096, 256]` is laid out as a row matrix `[32768, 256]` (row `b · 4096 + n` is the
  point `(b, n)`) and the projection's weight matrix is transposed.  Between the stages the projection is laid out again as
  `[8, 4096, 256]`; for every point the projections of its sixteen listed neighbours are gathered, the point's own projection
  is subtracted from each and the maximum over the sixteen is taken (`neighMax`); the result is laid out as a row matrix, and
  the four remaining weight matrices are transposed.  After the gated stage its output is laid out as `[8, 4096, 256]`.
  No host operation and no stage writes an argument array, so every argument read along the way is the array as launched.
-/
import proofs.«176502_j21260088115627_1_alg».proof.Proof.Gen.KernelIdeal.Frame
import proofs.«176502_j21260088115627_1_alg».proof.Proof.Stage0
import proofs.«176502_j21260088115627_1_alg».proof.Proof.Stage1
import Idealize.ShloMosaic.Lib.StableHlo.Run
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The neighbourhood maximum: from the projection `p` of every point and the table `idx` of sixteen neighbours per point
    (a negative entry counted from the end), the maximum over a point's neighbours of the neighbour's projection minus the
    point's own, channel by channel. -/
def neighMax (p : S8x4096x256.Idx → EReal) (idx : S8x4096x16.Idx → BitVec 32) : S8x4096x256.Idx → EReal :=
  Host.reduce (FloatOps.maximumf (F := Ideal) (φ := .f32))
    (subf (F := Ideal) (φ := .f32)
      (Host.gather gather_S8x4096x256_S8x4096x16x1_S8x4096x16x256_3_1_0_0_1_3_11256 p
        (broadcastInDim S8x4096x16x1 ![0, 1, 2] bcast_S8x4096x16_S8x4096x16x1_0_1_2
          (select (cmpi .slt idx (broadcastInDim S8x4096x16 ![] bcast_S_S8x4096x16 (constantI S_ 32 0#32)))
            (addi idx (broadcastInDim S8x4096x16 ![] bcast_S_S8x4096x16 (constantI S_ 32 4096#32))) idx)))
      (broadcastInDim S8x4096x16x256 ![0, 1, 2, 3] bcast_S8x4096x1x256_S8x4096x16x256_0_1_2_3
        (broadcastInDim S8x4096x1x256 ![0, 1, 3] bcast_S8x4096x256_S8x4096x1x256_0_1_3 p)))
    (constant (F := Ideal) S_ .f32 0xFF800000#32) reducesTo_S8x4096x16x256_S8x4096x256_d2 h_S_

/-! ## Before the projection stage -/

theorem V1_main_v0 (c : Dev nD) : (V1 m ρ c main_v0 : S32768x256.Idx → EReal)
    = shapeCast S32768x256 (m ((c : Thread nD τ).loc main_arg0)) shapeCasts_S8x4096x256_S32768x256 := by
  show StableHlo.after hostOps0 (W0 m ρ c) (Proc.devRef .tc main_v0) = _
  after_results
  all_goals rfl

theorem V1_main_v1 (c : Dev nD) : (V1 m ρ c main_v1 : S256x256.Idx → EReal)
    = transpose S256x256 [1, 0] (m ((c : Thread nD τ).loc main_arg2)) transposes_S256x256_S256x256_1_0 := by
  show StableHlo.after hostOps0 (W0 m ρ c) (Proc.devRef .tc main_v1) = _
  after_results
  all_goals rfl

/-! ## After the projection stage: the arguments are untouched, the stage's output is the whole product -/

theorem W2_main_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results
    all_goals rfl)
theorem W2_main_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results
    all_goals rfl)
theorem W2_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results
    all_goals rfl)
theorem W2_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results
    all_goals rfl)
theorem W2_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results
    all_goals rfl)
theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results
    all_goals rfl)
theorem W2_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results
    all_goals rfl)
theorem W2_main_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results
    all_goals rfl)
theorem W2_main_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results
    all_goals rfl)
theorem W2_main_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results
    all_goals rfl)
theorem W2_main_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results
    all_goals rfl)
theorem W2_main_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results
    all_goals rfl)

theorem W2_main_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

theorem W2_main_v2 (c : Dev nD) : (W2 m ρ c (Proc.devRef .tc main_v2) : S32768x256.Idx → EReal)
    = Stage0.prod (V1 m ρ c main_v0) (V1 m ρ c main_v1) :=
  (W2_arr m ρ c 2).trans (Stage0.final (V1 m ρ) c)

/-! ## Between the stages -/

theorem V3_main_v15 (c : Dev nD) : (V3 m ρ c main_v15 : S32768x256.Idx → EReal)
    = shapeCast S32768x256
        (neighMax (shapeCast S8x4096x256 (W2 m ρ c (Proc.devRef .tc main_v2)) shapeCasts_S32768x256_S8x4096x256)
          (m ((c : Thread nD τ).loc main_arg1)))
        shapeCasts_S8x4096x256_S32768x256 := by
  show StableHlo.after hostOps1 (W2 m ρ c) (Proc.devRef .tc main_v15) = _
  after_results
  rw [W2_main_arg1 m ρ c]
  rfl

theorem V3_main_v0 (c : Dev nD) : V3 m ρ c main_v0 = V1 m ρ c main_v0 := by
  show StableHlo.after hostOps1 (W2 m ρ c) (Proc.devRef .tc main_v0) = _
  after_results
  exact W2_main_v0 m ρ c

theorem V3_main_v16 (c : Dev nD) : (V3 m ρ c main_v16 : S256x256.Idx → EReal)
    = transpose S256x256 [1, 0] (m ((c : Thread nD τ).loc main_arg3)) transposes_S256x256_S256x256_1_0 := by
  show StableHlo.after hostOps1 (W2 m ρ c) (Proc.devRef .tc main_v16) = _
  after_results
  rw [W2_main_arg3 m ρ c]
theorem V3_main_v17 (c : Dev nD) : (V3 m ρ c main_v17 : S256x256.Idx → EReal)
    = transpose S256x256 [1, 0] (m ((c : Thread nD τ).loc main_arg4)) transposes_S256x256_S256x256_1_0 := by
  show StableHlo.after hostOps1 (W2 m ρ c) (Proc.devRef .tc main_v17) = _
  after_results
  rw [W2_main_arg4 m ρ c]
theorem V3_main_v18 (c : Dev nD) : (V3 m ρ c main_v18 : S256x256.Idx → EReal)
    = transpose S256x256 [1, 0] (m ((c : Thread nD τ).loc main_arg5)) transposes_S256x256_S256x256_1_0 := by
  show StableHlo.after hostOps1 (W2 m ρ c) (Proc.devRef .tc main_v18) = _
  after_results
  rw [W2_main_arg5 m ρ c]
theorem V3_main_v19 (c : Dev nD) : (V3 m ρ c main_v19 : S256x256.Idx → EReal)
    = transpose S256x256 [1, 0] (m ((c : Thread nD τ).loc main_arg7)) transposes_S256x256_S256x256_1_0 := by
  show StableHlo.after hostOps1 (W2 m ρ c) (Proc.devRef .tc main_v19) = _
  after_results
  rw [W2_main_arg7 m ρ c]

theorem V3_main_arg6 (c : Dev nD) : V3 m ρ c main_arg6 = m ((c : Thread nD τ).loc main_arg6) := by
  show StableHlo.after hostOps1 (W2 m ρ c) (Proc.devRef .tc main_arg6) = _
  after_results
  exact W2_main_arg6 m ρ c
theorem V3_main_arg8 (c : Dev nD) : V3 m ρ c main_arg8 = m ((c : Thread nD τ).loc main_arg8) := by
  show StableHlo.after hostOps1 (W2 m ρ c) (Proc.devRef .tc main_arg8) = _
  after_results
  exact W2_main_arg8 m ρ c
theorem V3_main_arg9 (c : Dev nD) : V3 m ρ c main_arg9 = m ((c : Thread nD τ).loc main_arg9) := by
  show StableHlo.after hostOps1 (W2 m ρ c) (Proc.devRef .tc main_arg9) = _
  after_results
  exact W2_main_arg9 m ρ c
theorem V3_main_arg10 (c : Dev nD) : V3 m ρ c main_arg10 = m ((c : Thread nD τ).loc main_arg10) := by
  show StableHlo.after hostOps1 (W2 m ρ c) (Proc.devRef .tc main_arg10) = _
  after_results
  exact W2_main_arg10 m ρ c
theorem V3_main_arg11 (c : Dev nD) : V3 m ρ c main_arg11 = m ((c : Thread nD τ).loc main_arg11) := by
  show StableHlo.after hostOps1 (W2 m ρ c) (Proc.devRef .tc main_arg11) = _
  after_results
  exact W2_main_arg11 m ρ c
theorem V3_main_arg12 (c : Dev nD) : V3 m ρ c main_arg12 = m ((c : Thread nD τ).loc main_arg12) := by
  show StableHlo.after hostOps1 (W2 m ρ c) (Proc.devRef .tc main_arg12) = _
  after_results
  exact W2_main_arg12 m ρ c
theorem V3_main_arg13 (c : Dev nD) : V3 m ρ c main_arg13 = m ((c : Thread nD τ).loc main_arg13) := by
  show StableHlo.after hostOps1 (W2 m ρ c) (Proc.devRef .tc main_arg13) = _
  after_results
  exact W2_main_arg13 m ρ c

/-! ## After the gated stage -/

theorem W4_main_v20 (c : Dev nD) : (W4 m ρ c (Proc.devRef .tc main_v20) : S32768x256.Idx → EReal)
    = Stage1.gated (V3 m ρ c main_v15) (V3 m ρ c main_v0) (V3 m ρ c main_v16) (V3 m ρ c main_v17) (V3 m ρ c main_v18)
        (V3 m ρ c main_v19) (V3 m ρ c main_arg6) (V3 m ρ c main_arg8) (V3 m ρ c main_arg9) (V3 m ρ c main_arg10)
        (V3 m ρ c main_arg11) (V3 m ρ c main_arg12) (V3 m ρ c main_arg13) :=
  (W4_arr m ρ c 13).trans (Stage1.final (V3 m ρ) c)

theorem W5_main_v21 (c : Dev nD) : (W5 m ρ c (Proc.devRef .tc main_v21) : S8x4096x256.Idx → EReal)
    = shapeCast S8x4096x256 (W4 m ρ c (Proc.devRef .tc main_v20)) shapeCasts_S32768x256_S8x4096x256 := by
  show StableHlo.after hostOps2 (W4 m ρ c) (Proc.devRef .tc main_v21) = _
  after_results
  all_goals rfl

end Cert.KernelIdeal.Chain

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.KernelValue.lean ====
/-
  The two-stage program's result array, as one function of the argument arrays.

  Reading the segment boundaries back from the result: the result `[8, 4096, 256]` is the gated stage's output row matrix laid
  out again, so its entry `(b, n, o)` is entry `(b · 4096 + n, o)` of that matrix; that row is the gated layer of row
  `b · 4096 + n` of the neighbourhood matrix and of the row matrix, which are line `(b, n)` of the neighbourhood maximum of the
  projection and of the input; the weight matrices the stage sees are the arguments transposed, so the matrix each stands for is
  the argument itself; biases and tables are the arguments.  The projection, laid out as `[8, 4096, 256]`, has at `(b, n, o)` the
  inner product of the input's line `(b, n)` with row `o` of the projection's weight matrix.
-/
import proofs.«176502_j21260088115627_1_alg».proof.Proof.KernelChain
import proofs.«176502_j21260088115627_1_alg».proof.Proof.LibRowPairs
import Idealize.ShloMosaic.Lib.ValueLayout

set_option maxRecDepth 16384

noncomputable section

namespace Cert.KernelIdeal.Result

open Cert.KernelIdeal Cert.KernelIdeal.Gen Cert.KernelIdeal.Chain Cert.KernelIdeal.RowRead Cert.GatedRows
open Idealize.ShloMosaic Idealize.ShloMosaic.TcCoe Idealize.ShloMosaic.ValueIdx Idealize.SL.Sem
open scoped BigOperators

/-- The projection as `[8, 4096, 256]`: the input's line `(b, n)` against row `o` of the weight matrix `[output, input]`. -/
def proj (x0 : S8x4096x256.Idx → EReal) (x2 : S256x256.Idx → EReal) : S8x4096x256.Idx → EReal :=
  shapeCast S8x4096x256
    (Stage0.prod (shapeCast S32768x256 x0 shapeCasts_S8x4096x256_S32768x256) (transpose S256x256 [1, 0] x2 transposes_S256x256_S256x256_1_0))
    shapeCasts_S32768x256_S8x4096x256

/-- Row `b · 4096 + n` of a row matrix is the point `(b, n)`. -/
def rowIx (b : Fin 8) (n : Fin 4096) : Fin 32768 := ⟨b.val * 4096 + n.val, by have := b.isLt; have := n.isLt; omega⟩

theorem proj_apply (x0 : S8x4096x256.Idx → EReal) (x2 : S256x256.Idx → EReal) (b : Fin 8) (n : Fin 4096) (o : Fin 256) :
    proj x0 x2 (ix3 b n o) = ∑ d : Fin 256, x0 (ix3 b n d) * x2 (ix2 o d) := by
  unfold proj
  refine (RowPairs.shapeCast_nc_abc_apply _ shapeCasts_S32768x256_S8x4096x256 b n o (rowIx b n) rfl).trans ?_
  unfold Stage0.prod
  refine Finset.sum_congr rfl fun d _ => ?_
  have ha : shapeCast S32768x256 x0 shapeCasts_S8x4096x256_S32768x256 (ix2 (rowIx b n) d) = x0 (ix3 b n d) :=
    RowPairs.shapeCast_abc_nc_apply x0 shapeCasts_S8x4096x256_S32768x256 b n d (rowIx b n) rfl
  have hb : transpose S256x256 [1, 0] x2 transposes_S256x256_S256x256_1_0 (ix2 d o) = x2 (ix2 o d) :=
    transpose_ix2_apply x2 transposes_S256x256_S256x256_1_0 d o
  exact congrArg₂ (· * ·) ha hb

/-- The result as one function of the fourteen argument arrays. -/
def out (x0 : S8x4096x256.Idx → EReal) (x1 : S8x4096x16.Idx → BitVec 32) (x2 x3 x4 x5 : S256x256.Idx → EReal) (x6 : S256.Idx → EReal)
    (x7 : S256x256.Idx → EReal) (x8 : S256.Idx → EReal) (x9 x10 x11 x12 x13 : S4x256.Idx → EReal) : S8x4096x256.Idx → EReal := fun i =>
  fuse scaleMul (fun ch => neighMax (proj x0 x2) x1 (ix3 (i 0) (i 1) ch)) (fun ch => x0 (ix3 (i 0) (i 1) ch))
    (fun o c => x3 (ix2 o c)) (fun o c => x4 (ix2 o c)) (fun o c => x5 (ix2 o c)) (fun o c => x7 (ix2 o c))
    (vecOf x6) (vecOf x8) (tabOf x9) (tabOf x10) (tabOf x11) (tabOf x12) (tabOf x13) (i 2)

variable (m : (ℓ : Loc nD τ sig) → Buf (Elt Ideal) ℓ) (ρ : Dev nD → PrngReg)

/-- A transposed weight matrix, read as the stage reads it, stands for the argument matrix. -/
theorem matT_transpose (x : S256x256.Idx → EReal) :
    matT (transpose S256x256 [1, 0] x transposes_S256x256_S256x256_1_0) = fun o c => x (ix2 o c) :=
  funext fun o => funext fun c => transpose_ix2_apply x transposes_S256x256_S256x256_1_0 c o

/-- The result array after the run is `out` of the argument arrays as launched. -/
theorem result (c : Dev nD) : (W5 m ρ c (Proc.devRef .tc main_v21) : S8x4096x256.Idx → EReal)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  funext i
  obtain ⟨b, n, o, rfl⟩ : ∃ (b : Fin 8) (n : Fin 4096) (o : Fin 256), i = ix3 b n o := ⟨i 0, i 1, i 2, eq_ix3 i⟩
  rw [W5_main_v21 m ρ c]
  refine (RowPairs.shapeCast_nc_abc_apply _ shapeCasts_S32768x256_S8x4096x256 b n o (rowIx b n) rfl).trans ?_
  rw [W4_main_v20 m ρ c]
  unfold Stage1.gated out
  refine Stage1.fuse_congr ?_ ?_ ?_ ?_ ?_ ?_ ?_ ?_ ?_ ?_ ?_ ?_ ?_ rfl
  · funext ch
    show (V3 m ρ c main_v15 : S32768x256.Idx → EReal) (ix2 (rowIx b n) ch) = _
    rw [V3_main_v15 m ρ c, W2_main_v2 m ρ c, V1_main_v0 m ρ c, V1_main_v1 m ρ c]
    exact RowPairs.shapeCast_abc_nc_apply _ shapeCasts_S8x4096x256_S32768x256 b n ch (rowIx b n) rfl
  · funext ch
    show (V3 m ρ c main_v0 : S32768x256.Idx → EReal) (ix2 (rowIx b n) ch) = _
    rw [V3_main_v0 m ρ c, V1_main_v0 m ρ c]
    exact RowPairs.shapeCast_abc_nc_apply _ shapeCasts_S8x4096x256_S32768x256 b n ch (rowIx b n) rfl
  · rw [V3_main_v16 m ρ c]; exact matT_transpose _
  · rw [V3_main_v17 m ρ c]; exact matT_transpose _
  · rw [V3_main_v18 m ρ c]; exact matT_transpose _
  · rw [V3_main_v19 m ρ c]; exact matT_transpose _
  · rw [V3_main_arg6 m ρ c]
  · rw [V3_main_arg8 m ρ c]
  · rw [V3_main_arg9 m ρ c]
  · rw [V3_main_arg10 m ρ c]
  · rw [V3_main_arg11 m ρ c]
  · rw [V3_main_arg12 m ρ c]
  · rw [V3_main_arg13 m ρ c]

end Cert.KernelIdeal.Result

end
-- ==== Proof.RefRows.lean ====
/-
  The reference's result, read at a point `(b, n)` and a channel `o`.

  The reference works on `[8, 4096, 256]` arrays.  Its operations group into a few forms: a product with a weight matrix
  `[256, 256]` contracting the channel axis with the matrix's second axis (`dotW`); a vector of 256 channels spread over all
  points (`spread`); normalising by a table — the table's mean row subtracted, its scale row divided by the square root of its
  variance row plus `ε` multiplied in, its shift row added (`normBy`); and the gate — `1 / (1 + e^(-z))` mixing the two
  branches (`gateMix`).  Each form, read at `(b, n, o)`, depends only on the line `(b, n, ·)` of its array operand; composing
  them gives the gated layer of `RowSpec` with the per-channel factor written as a quotient by the square root, applied to
  line `(b, n)` of the neighbourhood maximum and of the input.
-/
import proofs.«176502_j21260088115627_1_alg».proof.Proof.Gen.ReferenceIdeal.Read
import proofs.«176502_j21260088115627_1_alg».proof.Proof.KernelRowRead
import Idealize.ShloMosaic.Lib.ValueLayout
import Idealize.ShloMosaic.Lib.Pipeline.Value
import Idealize.ShloMosaic.Lib.ValueIdx

noncomputable section

namespace Cert.ReferenceIdeal.Rows

open Cert.ReferenceIdeal Cert.ReferenceIdeal.Gen Cert.ReferenceIdeal.Read Idealize.ShloMosaic Idealize.ShloMosaic.ValueIdx Cert.GatedRows
open Cert.KernelIdeal.RowRead (tab_row0 tab_row1 tab_row2 tab_row3)
open scoped BigOperators

/-- Line `(b, n)` of an `[8, 4096, 256]` array. -/
def lineOf (y : S8x4096x256.Idx → EReal) (b : Fin 8) (n : Fin 4096) : Row := fun c => y (ix3 b n c)
/-- A weight matrix `[output channel, input channel]` as the matrix it is. -/
def matOf (w : S256x256.Idx → EReal) : Mat := fun o c => w (ix2 o c)
/-- A `[4, 256]` array as a table. -/
def tabOf (t : S4x256.Idx → EReal) : Tab := fun k o => t (ix2 k o)
/-- A `[256]` array as a row. -/
def vecOf (v : S256.Idx → EReal) : Row := fun o => v (ix1 o)

/-! ## The forms -/

/-- A product with a weight matrix along the channel axis. -/
def dotW (y : FVec Ideal S8x4096x256 .f32) (w : FVec Ideal S256x256 .f32) : FVec Ideal S8x4096x256 .f32 :=
  Host.dotGeneral dot_S8x4096x256_S256x256_S8x4096x256_2_1_01_0_n_n none y w

/-- A vector of 256 channels spread over all points. -/
def spread {α : Type} (v : S256.Idx → α) : S8x4096x256.Idx → α :=
  broadcastInDim S8x4096x256 ![0, 1, 2] bcast_S1x1x256_S8x4096x256_0_1_2 (broadcastInDim S1x1x256 ![2] bcast_S256_S1x1x256_2 v)

/-- Normalising by a table. -/
def normBy (y : FVec Ideal S8x4096x256 .f32) (T : FVec Ideal S4x256 .f32) : FVec Ideal S8x4096x256 .f32 :=
  addf
    (mulf
      (subf y (spread (shapeCast S256 (extractStridedSlice S1x256 ![2, 0] T slices_S4x256_S1x256_2_0) shapeCasts_S1x256_S256)))
      (spread (Host.divf (shapeCast S256 (extractStridedSlice S1x256 ![0, 0] T slices_S4x256_S1x256_0_0) shapeCasts_S1x256_S256)
        (Host.sqrt (addf (shapeCast S256 (extractStridedSlice S1x256 ![3, 0] T slices_S4x256_S1x256_3_0) shapeCasts_S1x256_S256)
          (broadcastInDim S256 ![] bcast_S_S256 (constant (F := Ideal) S_ .f32 0x3727C5AC#32)))))))
    (spread (shapeCast S256 (extractStridedSlice S1x256 ![1, 0] T slices_S4x256_S1x256_1_0) shapeCasts_S1x256_S256))

/-- The constant one at every point. -/
def ones : FVec Ideal S8x4096x256 .f32 :=
  broadcastInDim S8x4096x256 ![] bcast_S_S8x4096x256 (constant (F := Ideal) S_ .f32 0x3F800000#32)

/-- The gate of `z` mixing the two branches. -/
def gateMix (z x1 x2 : FVec Ideal S8x4096x256 .f32) : FVec Ideal S8x4096x256 .f32 :=
  addf (mulf (Host.divf ones (addf ones (Host.exp (Host.negf z)))) x1)
    (mulf (subf ones (Host.divf ones (addf ones (Host.exp (Host.negf z))))) x2)

/-! ## The forms read at an index -/

theorem dotW_apply (y : FVec Ideal S8x4096x256 .f32) (w : FVec Ideal S256x256 .f32) (b : Fin 8) (n : Fin 4096) (o : Fin 256) :
    dotW y w (ix3 b n o) = lin (matOf w) (fun c => y (ix3 b n c)) o := by
  refine (val_main_v0_apply y w (ix3 b n o)).trans ?_
  refine Finset.sum_congr rfl fun k _ => ?_
  have el : lidx_main_v0 (ix3 b n o) k = ix3 b n k := funext fun a => Fin.ext (by
    match a with
    | ⟨0, _⟩ => rfl
    | ⟨1, _⟩ => rfl
    | ⟨2, _⟩ => rfl)
  have er : ridx_main_v0 (ix3 b n o) k = ix2 o k := funext fun a => Fin.ext (by
    match a with
    | ⟨0, _⟩ => rfl
    | ⟨1, _⟩ => rfl)
  rw [el, er]
  rfl

theorem spread_apply {α : Type} (v : S256.Idx → α) (b : Fin 8) (n : Fin 4096) (o : Fin 256) : spread v (ix3 b n o) = v (ix1 o) :=
  (broadcastInDim_apply _ bcast_S1x1x256_S8x4096x256_0_1_2 _ (ix3 b n o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show o.val = if (256 : Nat) = 1 then 0 else o.val; rw [if_neg (by decide)])).trans
  (broadcastInDim_apply _ bcast_S256_S1x1x256_2 v (ix3 (0 : Fin 1) (0 : Fin 1) o) (ix1 o) (fun a => match a with
    | ⟨0, _⟩ => by show o.val = if (256 : Nat) = 1 then 0 else o.val; rw [if_neg (by decide)]))

theorem splat256_apply (w : BitVec 32) (o : Fin 256) :
    broadcastInDim S256 ![] bcast_S_S256 (constant (F := Ideal) S_ .f32 w) (ix1 o) = Ideal.ofBits .f32 w :=
  broadcastInDim_apply _ bcast_S_S256 _ (ix1 o) (fun a => a.elim0) (fun a => a.elim0)

theorem ones_apply (i : S8x4096x256.Idx) : ones i = one :=
  broadcastInDim_apply _ bcast_S_S8x4096x256 _ i (fun a => a.elim0) (fun a => a.elim0)

theorem normBy_apply (y : FVec Ideal S8x4096x256 .f32) (T : FVec Ideal S4x256 .f32) (b : Fin 8) (n : Fin 4096) (o : Fin 256) :
    normBy y T (ix3 b n o) = norm (scaleDiv (tabOf T)) (tabOf T) (fun c => y (ix3 b n c)) o := by
  unfold normBy
  simp only [addf, mulf, subf, Host.divf, Host.sqrt, spread_apply, splat256_apply, tab_row0, tab_row1, tab_row2, tab_row3]
  rfl

/-- The logistic function as the reference spells it, with the word of `1`. -/
theorem gate_eq (z : EReal) : Ideal.div one (one + Ideal.exp (-z)) = Ideal.logistic z := by
  rw [one_eq]; rfl

theorem gateMix_apply (z x1 x2 : FVec Ideal S8x4096x256 .f32) (i : S8x4096x256.Idx) :
    gateMix z x1 x2 i = Ideal.logistic (z i) * x1 i + (one - Ideal.logistic (z i)) * x2 i := by
  unfold gateMix
  simp only [addf, mulf, subf, Host.divf, Host.exp, Host.negf, ones_apply]
  rw [← gate_eq (z i)]
  rfl

/-! ## The reference's result -/

/-- The reference's result as a composition of the forms, over the neighbourhood maximum `xk`. -/
def refOut (xk x0 : FVec Ideal S8x4096x256 .f32) (x3 x4 x5 : FVec Ideal S256x256 .f32) (x6 : FVec Ideal S256 .f32)
    (x7 : FVec Ideal S256x256 .f32) (x8 : FVec Ideal S256 .f32) (x9 x10 x11 x12 x13 : FVec Ideal S4x256 .f32) : FVec Ideal S8x4096x256 .f32 :=
  normBy
    (gateMix
      (normBy (addf (dotW (normBy (addf (dotW (addf (normBy (dotW xk x3) x9) (normBy (dotW x0 x4) x10)) x5) (spread x6)) x11) x7) (spread x8)) x12)
      (normBy (dotW xk x3) x9) (normBy (dotW x0 x4) x10))
    x13

theorem result_eq (x0 : FVec Ideal S8x4096x256 .f32) (x1 : IVec S8x4096x16 32) (x2 x3 x4 x5 : FVec Ideal S256x256 .f32)
    (x6 : FVec Ideal S256 .f32) (x7 : FVec Ideal S256x256 .f32) (x8 : FVec Ideal S256 .f32) (x9 x10 x11 x12 x13 : FVec Ideal S4x256 .f32) :
    val_main_v138 (F := Ideal) x0 x1 x2 x3 x4 x5 x6 x7 x8 x9 x10 x11 x12 x13
      = refOut (val_main_v11 (F := Ideal) x0 x1 x2) x0 x3 x4 x5 x6 x7 x8 x9 x10 x11 x12 x13 := rfl

/-- The reference's result at a point and a channel: the gated layer, with quotients by square roots, of the point's line of
    the neighbourhood maximum and of the input. -/
theorem refOut_apply (xk x0 : FVec Ideal S8x4096x256 .f32) (x3 x4 x5 : FVec Ideal S256x256 .f32) (x6 : FVec Ideal S256 .f32)
    (x7 : FVec Ideal S256x256 .f32) (x8 : FVec Ideal S256 .f32) (x9 x10 x11 x12 x13 : FVec Ideal S4x256 .f32)
    (b : Fin 8) (n : Fin 4096) (o : Fin 256) :
    refOut xk x0 x3 x4 x5 x6 x7 x8 x9 x10 x11 x12 x13 (ix3 b n o)
      = fuse scaleDiv (lineOf xk b n) (lineOf x0 b n) (matOf x3) (matOf x4) (matOf x5) (matOf x7) (vecOf x6) (vecOf x8)
          (tabOf x9) (tabOf x10) (tabOf x11) (tabOf x12) (tabOf x13) o := by
  unfold refOut fuse
  simp only [normBy_apply, gateMix_apply, dotW_apply, addf, spread_apply]
  rfl

end Cert.ReferenceIdeal.Rows

end
-- ==== Proof.Bridge.lean ====
/-
  The two programs compute one function of the arguments.

  The two-stage program's result at `(b, n, o)` is the gated layer, written with products by reciprocal square roots, of the
  point's line of the neighbourhood maximum of its projection and of the input; the reference's result is the same layer,
  written with quotients by square roots, of the point's line of the neighbourhood maximum of ITS projection and of the input.
  The two projections are one array (the same inner products), the neighbourhood maximum is the same operations on both
  sides, and with non-negative variance rows the two ways of writing the layer agree.
-/
import proofs.«176502_j21260088115627_1_alg».proof.Proof.KernelValue
import proofs.«176502_j21260088115627_1_alg».proof.Proof.RefRows

set_option maxRecDepth 16384

noncomputable section

namespace Cert.Bridge

open Idealize.ShloMosaic Idealize.ShloMosaic.ValueIdx Cert.GatedRows
open Cert.ReferenceIdeal Cert.ReferenceIdeal.Read
open scoped BigOperators

/-- The projection the two-stage program computes is the reference's first product. -/
theorem proj_eq (x0 : FVec Ideal S8x4096x256 .f32) (x2 : FVec Ideal S256x256 .f32) :
    Cert.KernelIdeal.Result.proj x0 x2 = val_main_v0 (F := Ideal) x0 x2 := by
  funext i
  obtain ⟨b, n, o, rfl⟩ : ∃ (b : Fin 8) (n : Fin 4096) (o : Fin 256), i = ix3 b n o := ⟨i 0, i 1, i 2, eq_ix3 i⟩
  rw [Cert.KernelIdeal.Result.proj_apply]
  exact (Cert.ReferenceIdeal.Rows.dotW_apply x0 x2 b n o).symm

/-- The neighbourhood maximum is the same operations in both programs. -/
theorem neighMax_eq (x0 : FVec Ideal S8x4096x256 .f32) (x1 : IVec S8x4096x16 32) (x2 : FVec Ideal S256x256 .f32) :
    Cert.KernelIdeal.Chain.neighMax (val_main_v0 (F := Ideal) x0 x2) x1 = val_main_v11 (F := Ideal) x0 x1 x2 := rfl

/-- With non-negative variance rows, the two-stage program's result is the reference's. -/
theorem out_eq_ref (x0 : FVec Ideal S8x4096x256 .f32) (x1 : IVec S8x4096x16 32) (x2 x3 x4 x5 : FVec Ideal S256x256 .f32)
    (x6 : FVec Ideal S256 .f32) (x7 : FVec Ideal S256x256 .f32) (x8 : FVec Ideal S256 .f32) (x9 x10 x11 x12 x13 : FVec Ideal S4x256 .f32)
    (h9 : ∀ o : Fin 256, 0 ≤ x9 (ix2 (3 : Fin 4) o)) (h10 : ∀ o : Fin 256, 0 ≤ x10 (ix2 (3 : Fin 4) o))
    (h11 : ∀ o : Fin 256, 0 ≤ x11 (ix2 (3 : Fin 4) o)) (h12 : ∀ o : Fin 256, 0 ≤ x12 (ix2 (3 : Fin 4) o))
    (h13 : ∀ o : Fin 256, 0 ≤ x13 (ix2 (3 : Fin 4) o)) :
    Cert.KernelIdeal.Result.out x0 x1 x2 x3 x4 x5 x6 x7 x8 x9 x10 x11 x12 x13
      = val_main_v138 (F := Ideal) x0 x1 x2 x3 x4 x5 x6 x7 x8 x9 x10 x11 x12 x13 := by
  funext i
  obtain ⟨b, n, o, rfl⟩ : ∃ (b : Fin 8) (n : Fin 4096) (o : Fin 256), i = ix3 b n o := ⟨i 0, i 1, i 2, eq_ix3 i⟩
  rw [Cert.ReferenceIdeal.Rows.result_eq, Cert.ReferenceIdeal.Rows.refOut_apply]
  unfold Cert.KernelIdeal.Result.out
  rw [proj_eq, neighMax_eq]
  exact congrFun (fuse_mul_eq_fuse_div (Cert.ReferenceIdeal.Rows.lineOf (val_main_v11 (F := Ideal) x0 x1 x2) b n)
    (Cert.ReferenceIdeal.Rows.lineOf x0 b n) (Cert.ReferenceIdeal.Rows.matOf x3) (Cert.ReferenceIdeal.Rows.matOf x4)
    (Cert.ReferenceIdeal.Rows.matOf x5) (Cert.ReferenceIdeal.Rows.matOf x7) (Cert.ReferenceIdeal.Rows.vecOf x6)
    (Cert.ReferenceIdeal.Rows.vecOf x8) (Cert.ReferenceIdeal.Rows.tabOf x9) (Cert.ReferenceIdeal.Rows.tabOf x10)
    (Cert.ReferenceIdeal.Rows.tabOf x11) (Cert.ReferenceIdeal.Rows.tabOf x12) (Cert.ReferenceIdeal.Rows.tabOf x13)
    h9 h10 h11 h12 h13) o

end Cert.Bridge

end
-- ==== Proof.PreDecode.lean ====
/-
  The variance rows are non-negative: the precondition's last five conjuncts, read back.

  The precondition is a conjunction of eighteen `all(…)` tests.  The last five say, for each of the five tables, that every
  entry of its variance row (row 3) is at least zero: the row is sliced out, cast to a vector, compared with a vector of zeros
  and the comparisons are folded by `and`.  A conjunction that is 1 has each conjunct 1; a fold by `and` that is 1 met only
  1s; and the comparison `v ≥ 0` being 1 on the extended reals is `0 ≤ v`.
-/
import proofs.«176502_j21260088115627_1_alg».proof.Proof.Gen.Pre_finite_inputs
import proofs.«176502_j21260088115627_1_alg».proof.Proof.KernelRowRead
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Decode

open Cert.Pre_finite_inputs Cert.Pre_finite_inputs.Gen Idealize.ShloMosaic Idealize.ShloMosaic.ValueIdx
open Cert.KernelIdeal.RowRead (tab_row3)

instance : Subsingleton S_.Idx := ⟨fun a b => funext fun d => d.elim0⟩

/-- The comparison `x ≥ y` on the extended reals being 1 is `y ≤ x`. -/
theorem le_of_oge {x y : EReal} (h : Ideal.cmp .oge x y = 1#1) : y ≤ x := by
  by_cases hxy : y ≤ x
  · exact hxy
  · exfalso
    have h' : BitVec.ofBool (decide (y ≤ x)) = 1#1 := h
    rw [show decide (y ≤ x) = false from decide_eq_false hxy] at h'
    exact absurd h' (by decide)

/-- One conjunct `all(T[3] ≥ 0)` that is 1 says every entry of the table's row 3 is non-negative. -/
theorem row3_nonneg (T : FVec Ideal S4x256 .f32) (init : IVec S_ 1)
    (h : Host.reduce IntOp.andi
        (cmpf .oge (shapeCast S256 (extractStridedSlice S1x256 ![3, 0] T slices_S4x256_S1x256_3_0) shapeCasts_S1x256_S256)
          (broadcastInDim S256 ![] bcast_S_S256 (constant (F := Ideal) S_ .f32 0x00000000#32)))
        init reducesTo_S256_S_d0 h_S_ ValueIdx.ix0 = 1#1) (o : Fin 256) : 0 ≤ T (ix2 (3 : Fin 4) o) := by
  have e := Host.reduce_andi_all _ _ _ _ _ h (ix1 o)
  have e2 : broadcastInDim S256 ![] bcast_S_S256 (constant (F := Ideal) S_ .f32 0x00000000#32) (ix1 o)
      ≤ shapeCast S256 (extractStridedSlice S1x256 ![3, 0] T slices_S4x256_S1x256_3_0) shapeCasts_S1x256_S256 (ix1 o) :=
    le_of_oge (show Ideal.cmp .oge
      (shapeCast S256 (extractStridedSlice S1x256 ![3, 0] T slices_S4x256_S1x256_3_0) shapeCasts_S1x256_S256 (ix1 o))
      (broadcastInDim S256 ![] bcast_S_S256 (constant (F := Ideal) S_ .f32 0x00000000#32) (ix1 o)) = 1#1 from e)
  rw [tab_row3 T slices_S4x256_S1x256_3_0 shapeCasts_S1x256_S256 o] at e2
  have ez : broadcastInDim S256 ![] bcast_S_S256 (constant (F := Ideal) S_ .f32 0x00000000#32) (ix1 o) = (0 : EReal) :=
    (broadcastInDim_apply _ bcast_S_S256 _ (ix1 o) (fun a => a.elim0) (fun a => a.elim0)).trans Ideal.ofBits_zero_f32
  rw [ez] at e2
  exact e2

/-- Under the precondition every variance entry of the five tables is non-negative. -/
theorem variances_nonneg (x0 : FVec Ideal S8x4096x256 .f32) (x1 : IVec S8x4096x16 32) (x2 x3 x4 x5 : FVec Ideal S256x256 .f32)
    (x6 : FVec Ideal S256 .f32) (x7 : FVec Ideal S256x256 .f32) (x8 : FVec Ideal S256 .f32) (x9 x10 x11 x12 x13 : FVec Ideal S4x256 .f32)
    (h : fn (F := Ideal) x0 x1 x2 x3 x4 x5 x6 x7 x8 x9 x10 x11 x12 x13 = fun _ => 1#1) :
    (∀ o : Fin 256, 0 ≤ x9 (ix2 (3 : Fin 4) o)) ∧ (∀ o : Fin 256, 0 ≤ x10 (ix2 (3 : Fin 4) o))
      ∧ (∀ o : Fin 256, 0 ≤ x11 (ix2 (3 : Fin 4) o)) ∧ (∀ o : Fin 256, 0 ≤ x12 (ix2 (3 : Fin 4) o))
      ∧ (∀ o : Fin 256, 0 ≤ x13 (ix2 (3 : Fin 4) o)) := by
  have h0 := congrFun h ValueIdx.ix0
  dsimp only [fn, fn_part1, fn_part2, fn_part3, fn_part4, fn_part5] at h0
  obtain ⟨h1, c18⟩ := IntOp.andi_eq_one.1 h0
  obtain ⟨h2, c17⟩ := IntOp.andi_eq_one.1 h1
  obtain ⟨h3, c16⟩ := IntOp.andi_eq_one.1 h2
  obtain ⟨h4, c15⟩ := IntOp.andi_eq_one.1 h3
  obtain ⟨h5, c14⟩ := IntOp.andi_eq_one.1 h4
  exact ⟨row3_nonneg x9 _ c14, row3_nonneg x10 _ c15, row3_nonneg x11 _ c16, row3_nonneg x12 _ c17, row3_nonneg x13 _ c18⟩

end Cert.Pre_finite_inputs.Decode

end
-- ==== Proof.lean ====
/-
  The certificate of the gated two-branch layer: a two-stage program (a projection, a neighbourhood maximum on the host, a
  gated stage fusing four matrix products, five per-channel normalisations and a logistic gate) against its array-at-a-time
  reference, equal on the extended reals.

  The three programs run, fault-free, with their arguments unchanged: the two printed programs by their frames, the reference by
  its run.  Nothing was rewritten between the program and its idealization.  For the values: the two-stage program's result is
  one function of the arguments (`KernelValue`), the reference's result is another (`RefRows`); they differ only in writing a
  normalisation's per-channel factor `γ / √(σ² + ε)` as a product with a reciprocal square root or as a quotient by a square
  root, and under the precondition every variance `σ²` is non-negative (`PreDecode`), where the two agree (`RowSpec`,
  `Bridge`).
-/
import proofs.«176502_j21260088115627_1_alg».proof.Defs
import proofs.«176502_j21260088115627_1_alg».proof.Proof.Gen.Kernel
import proofs.«176502_j21260088115627_1_alg».proof.Proof.Gen.Kernel.Frame
import proofs.«176502_j21260088115627_1_alg».proof.Proof.Gen.KernelIdeal
import proofs.«176502_j21260088115627_1_alg».proof.Proof.Gen.KernelIdeal.Frame
import proofs.«176502_j21260088115627_1_alg».proof.Proof.Gen.ReferenceIdeal
import proofs.«176502_j21260088115627_1_alg».proof.Proof.Gen.Pre_finite_inputs
import proofs.«176502_j21260088115627_1_alg».proof.Proof.Gen.ReferenceIdeal.Run
import proofs.«176502_j21260088115627_1_alg».proof.Proof.Gen.ReferenceIdeal.Read
import proofs.«176502_j21260088115627_1_alg».proof.Proof.KernelRun
import proofs.«176502_j21260088115627_1_alg».proof.Proof.KernelValue
import proofs.«176502_j21260088115627_1_alg».proof.Proof.Bridge
import proofs.«176502_j21260088115627_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run and end with one result: the two-stage program's
    result array is `out` of its arguments, the reference's is its composed term of the same arguments, and the two are
    equal where the variance rows are non-negative. -/
theorem algebraic : Cert.algebraic_KernelIdeal_ReferenceIdeal := by
  intro m ρ m' ρ' hpre hagree
  refine ⟨fun c => Cert.KernelIdeal.Gen.W5 m ρ c (Proc.devRef .tc Cert.KernelIdeal.main_v21), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨h9, h10, h11, h12, h13⟩ := Cert.Pre_finite_inputs.Decode.variances_nonneg _ _ _ _ _ _ _ _ _ _ _ _ _ _ (hpre c)
  rw [Cert.ReferenceIdeal.Read.val_main_v138_eq m' c, a0, a1, a2, a3, a4, a5, a6, a7, a8, a9, a10, a11, a12, a13]
  exact ((Cert.KernelIdeal.Result.result m ρ c).trans (Cert.Bridge.out_eq_ref _ _ _ _ _ _ _ _ _ _ _ _ _ _ h9 h10 h11 h12 h13)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
